-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3 : Shape := ⟨2, ![256, 3]⟩
abbrev S1024x3 : Shape := ⟨2, ![1024, 3]⟩
abbrev S1024 : Shape := ⟨1, ![1024]⟩
abbrev S2x1024x1024 : Shape := ⟨3, ![2, 1024, 1024]⟩
abbrev S2x1024 : Shape := ⟨2, ![2, 1024]⟩
abbrev S1x1024 : Shape := ⟨2, ![1, 1024]⟩
abbrev S1 : Shape := ⟨1, ![1]⟩
abbrev S_ : Shape := ⟨0, ![]⟩

class Facts : Prop where
  bcast_S_S256x3 : S_.BroadcastsInDim S256x3 (![] : Fin 0 → Fin S256x3.rank)
  reducesTo_S256x3_S_d0_1 : S256x3.ReducesTo [0, 1] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2x1024 .f32) (main_arg5 : FVec F S1x1024 .f32) (main_arg6 : FVec F S1 .f32) (main_v13 : IVec S_ 1) (main_v16 : IVec S2x1024x1024 1) : IVec S_ 1 :=
  let main_c_5 : IVec S_ 1 := constantI S_ 1 1#1
  let main_v17 : IVec S_ 1 := (fun x v => Host.reduce IntOp.andi x v reducesTo_S2x1024x1024_S_d0_1_2 h_S_) main_v16 main_c_5
  let main_v18 : IVec S_ 1 := andi main_v13 main_v17
  let main_v19 : FVec F S2x1024 .f32 := Host.absf main_arg4
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S256x3 .f32) (main_arg1 : FVec F S1024x3 .f32) (main_arg2 : FVec F S1024 .f32) (main_arg3 : FVec F S2x1024x1024 .f32) (main_arg4 : FVec F S2x1024 .f32) (main_arg5 : FVec F S1x1024 .f32) (main_arg6 : FVec F S1 .f32) : IVec S_ 1 :=
  let main_v0 : FVec F S256x3 .f32 := Host.absf main_arg0
  let main_cst : FVec F S_ .f32 := constant S_ .f32 0x7F800000#32
  let main_v1 : FVec F S256x3 .f32 := broadcastInDim S256x3 ![] bcast_S_S256x3 main_cst
  let main_v2 : IVec S256x3 1 := cmpf .olt main_v0 main_v1
  let main_c : IVec S_ 1 := constantI S_ 1 1#1
  let main_v3 : IVec S_ 1 := (fun x v => Host.reduce IntOp.andi x v reducesTo_S256x3_S_d0_1 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x1024x1024 .f32 := Host.absf main_arg3
  let main_cst_4 : FVec F S_ .f32 := constant S_ .f32 0x7F800000#32
  let main_v15 : FVec F S2x1024x1024 .f32 := broadcastInDim S2x1024x1024 ![] bcast_S_S2x1024x1024 main_cst_4
  let main_v16 : IVec S2x1024x1024 1 := cmpf .olt main_v14 main_v15
  fn_part1 (F := F) main_arg4 main_arg5 main_arg6 main_v13 main_v16
-- ==== Kernel.lean ====
abbrev S256x3 : Shape := ⟨2, ![256, 3]⟩
abbrev S1024x3 : Shape := ⟨2, ![1024, 3]⟩
abbrev S1024 : Shape := ⟨1, ![1024]⟩
abbrev S2x1024x1024 : Shape := ⟨3, ![2, 1024, 1024]⟩
abbrev S2x1024 : Shape := ⟨2, ![2, 1024]⟩
abbrev S1x1024 : Shape := ⟨2, ![1, 1024]⟩
abbrev S1 : Shape := ⟨1, ![1]⟩
abbrev S256x1024 : Shape := ⟨2, ![256, 1024]⟩
abbrev S128x3 : Shape := ⟨2, ![128, 3]⟩
abbrev S1x128 : Shape := ⟨2, ![1, 128]⟩
abbrev S256x128 : Shape := ⟨2, ![256, 128]⟩
abbrev S1x128x3 : Shape := ⟨3, ![1, 128, 3]⟩
abbrev S256x1x3 : Shape := ⟨3, ![256, 1, 3]⟩
abbrev S256x128x3 : Shape := ⟨3, ![256, 128, 3]⟩
abbrev S1x1024x1024 : Shape := ⟨3, ![1, 1024, 1024]⟩
abbrev S1024x1024 : Shape := ⟨2, ![1024, 1024]⟩
abbrev S128x1024 : Shape := ⟨2, ![128, 1024]⟩
abbrev S256x16 : Shape := ⟨2, ![256, 16]⟩
abbrev S128x16 : Shape := ⟨2, ![128, 16]⟩
abbrev S1x128x16 : Shape := ⟨3, ![1, 128, 16]⟩
abbrev S256x1x16 : Shape := ⟨3, ![256, 1, 16]⟩
abbrev S256x128x16 : Shape := ⟨3, ![256, 128, 16]⟩
abbrev S1x1x1024 : Shape := ⟨3, ![1, 1, 1024]⟩
abbrev S256x1x1024 : Shape := ⟨3, ![256, 1, 1024]⟩
abbrev S_ : Shape := ⟨0, ![]⟩
abbrev S256x1 : Shape := ⟨2, ![256, 1]⟩
abbrev S1x1 : Shape := ⟨2, ![1, 1]⟩
abbrev S256 : Shape := ⟨1, ![256]⟩

abbrev nBuf : Space → Nat
  | .hbm => 31
  | .vmem => 24
  | .smem => 0
  | _ => 0

abbrev bufTy : (tb : Table) → Fin (tcTables nBuf tb) → BufTy
  | .hbm, ⟨0, _⟩ => ⟨S256x3, .f32⟩
  | .hbm, ⟨1, _⟩ => ⟨S1024x3, .f32⟩
  | .hbm, ⟨2, _⟩ => ⟨S1024, .f32⟩
  | .hbm, ⟨3, _⟩ => ⟨S2x1024x1024, .f32⟩
  | .hbm, ⟨4, _⟩ => ⟨S2x1024, .f32⟩
  | .hbm, ⟨5, _⟩ => ⟨S1x1024, .f32⟩
  | .hbm, ⟨6, _⟩ => ⟨S1, .f32⟩
  | .hbm, ⟨7, _⟩ => ⟨S1x1024, .f32⟩
  | .hbm, ⟨8, _⟩ => ⟨S256x1024, .f32⟩
  | .hbm, ⟨9, _⟩ => ⟨S1x1024x1024, .f32⟩
  | .hbm, ⟨10, _⟩ => ⟨S1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S256x1024, .f32⟩
  | .hbm, ⟨15, _⟩ => ⟨S1x1024x1024, .f32⟩
  | .hbm, ⟨16, _⟩ => ⟨S1024x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S256x1024, .f32⟩
  | .hbm, ⟨21, _⟩ => ⟨S1x1x1024, .f32⟩
  | .hbm, ⟨22, _⟩ => ⟨S256x1x1024, .f32⟩
  | .hbm, ⟨23, _⟩ => ⟨S256x1x1024, .f32⟩
  | .hbm, ⟨24, _⟩ => ⟨S256x1x1024, .f32⟩
  | .hbm, ⟨25, _⟩ => ⟨S_, .f32⟩
  | .hbm, ⟨26, _⟩ => ⟨S256x1, .f32⟩
  | .hbm, ⟨27, _⟩ => ⟨S1x1, .f32⟩
  | .hbm, ⟨28, _⟩ => ⟨S256x1, .f32⟩
  | .hbm, ⟨29, _⟩ => ⟨S256x1, .f32⟩
  | .hbm, ⟨30, _⟩ => ⟨S256, .f32⟩
  | .local _ .vmem, ⟨0, _⟩ => ⟨S256x3, .f32⟩
  | .local _ .vmem, ⟨1, _⟩ => ⟨S128x3, .f32⟩
  | .local _ .vmem, ⟨2, _⟩ => ⟨S128x3, .f32⟩
  | .local _ .vmem, ⟨3, _⟩ => ⟨S1x128, .f32⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .f32⟩
  | .local _ .vmem, ⟨9, _⟩ => ⟨S128x1024, .f32⟩
  | .local _ .vmem, ⟨10, _⟩ => ⟨S128x1024, .f32⟩
  | .local _ .vmem, ⟨11, _⟩ => ⟨S1x128, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S128x1024, .f32⟩
  | .local _ .vmem, ⟨18, _⟩ => ⟨S128x1024, .f32⟩
  | .local _ .vmem, ⟨19, _⟩ => ⟨S1x128, .f32⟩
  | .local _ .vmem, ⟨20, _⟩ => ⟨S1x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | _, _ => ⟨S256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1024_S1x1024 : S1024.ShapeCasts S1x1024
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x3_S256x3_0_0 : ∀ a, (![0, 0] : Fin 2 → Nat) a + S256x3.size a ≤ S256x3.size a
  h_S256x3 : 0 < S256x3.numel
  inb_S128x3_S128x3_0_0 : ∀ a, (![0, 0] : Fin 2 → Nat) a + S128x3.size a ≤ S128x3.size a
  h_S128x3 : 0 < S128x3.numel
  shapeCasts_S128x3_S1x128x3 : S128x3.ShapeCasts S1x128x3
  shapeCasts_S256x3_S256x1x3 : S256x3.ShapeCasts S256x1x3
  broadcasts_S1x128x3_S256x128x3 : S1x128x3.Broadcasts S256x128x3
  broadcasts_S256x1x3_S256x128x3 : S256x1x3.Broadcasts S256x128x3
  reduces_S256x128x3_S256x128 : S256x128x3.Reduces [2] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S2x1024x1024_S1x1024x1024_0_0_0 : S2x1024x1024.Slices ![0, 0, 0] S1x1024x1024
  shapeCasts_S1x1024x1024_S1024x1024 : S1x1024x1024.ShapeCasts S1024x1024
  slices_S2x1024_S1x1024_0_0 : S2x1024.Slices ![0, 0] S1x1024
  shapeCasts_S1x1024_S1024 : S1x1024.ShapeCasts S1024
  inb_S256x1024_S256x16_0_0 : ∀ a, (![0, 0] : Fin 2 → Nat) a + S256x16.size a ≤ S256x1024.size a
  h_S256x16 : 0 < S256x16.numel
  shapeCasts_S256x16_S256x16 : S256x16.ShapeCasts S256x16
  inb_S128x1024_S128x16_0_0 : ∀ a, (![0, 0] : Fin 2 → Nat) a + S128x16.size a ≤ S128x1024.size a
  h_S128x16 : 0 < S128x16.numel
  shapeCasts_S128x16_S128x16 : S128x16.ShapeCasts S128x16
  shapeCasts_S128x16_S1x128x16 : S128x16.ShapeCasts S1x128x16
  shapeCasts_S256x16_S256x1x16 : S256x16.ShapeCasts S256x1x16
  broadcasts_S1x128x16_S256x128x16 : S1x128x16.Broadcasts S256x128x16
  broadcasts_S256x1x16_S256x128x16 : S256x1x16.Broadcasts S256x128x16
  reduces_S256x128x16_S256x128 : S256x128x16.Reduces [2] S256x128
  inb_S256x1024_S256x16_0_16 : ∀ a, (![0, 16] : Fin 2 → Nat) a + S256x16.size a ≤ S256x1024.size a
  inb_S128x1024_S128x16_0_16 : ∀ a, (![0, 16] : Fin 2 → Nat) a + S128x16.size a ≤ S128x1024.size a
  inb_S256x1024_S256x16_0_32 : ∀ a, (![0, 32] : Fin 2 → Nat) a + S256x16.size a ≤ S256x1024.size a
  inb_S128x1024_S128x16_0_32 : ∀ a, (![0, 32] : Fin 2 → Nat) a + S128x16.size a ≤ S128x1024.size a
  inb_S256x1024_S256x16_0_48 : ∀ a, (![0, 48] : Fin 2 → Nat) a + S256x16.size a ≤ S256x1024.size a
  inb_S128x1024_S128x16_0_48 : ∀ a, (![0, 48] : Fin 2 → Nat) a + S128x16.size a ≤ S128x1024.size a
  inb_S256x1024_S256x16_0_64 : ∀ a, (![0, 64] : Fin 2 → Nat) a + S256x16.size a ≤ S256x1024.size a
  inb_S128x1024_S128x16_0_64 : ∀ a, (![0, 64] : Fin 2 → Nat) a + S128x16.size a ≤ S128x1024.size a
  inb_S256x1024_S256x16_0_80 : ∀ a, (![0, 80] : Fin 2 → Nat) a + S256x16.size a ≤ S256x1024.size a
  inb_S128x1024_S128x16_0_80 : ∀ a, (![0, 80] : Fin 2 → Nat) a + S128x16.size a ≤ S128x1024.size a
  inb_S256x1024_S256x16_0_96 : ∀ a, (![0, 96] : Fin 2 → Nat) a + S256x16.size a ≤ S256x1024.size a
  inb_S128x1024_S128x16_0_96 : ∀ a, (![0, 96] : Fin 2 → Nat) a + S128x16.size a ≤ S128x1024.size a
  inb_S256x1024_S256x16_0_112 : ∀ a, (![0, 112] : Fin 2 → Nat) a + S256x16.size a ≤ S256x1024.size a
  inb_S128x1024_S128x16_0_112 : ∀ a, (![0, 112] : Fin 2 → Nat) a + S128x16.size a ≤ S128x1024.size a
  inb_S256x1024_S256x16_0_128 : ∀ a, (![0, 128] : Fin 2 → Nat) a + S256x16.size a ≤ S256x1024.size a
  inb_S128x1024_S128x16_0_128 : ∀ a, (![0, 128] : Fin 2 → Nat) a + S128x16.size a ≤ S128x1024.size a
  inb_S256x1024_S256x16_0_144 : ∀ a, (![0, 144] : Fin 2 → Nat) a + S256x16.size a ≤ S256x1024.size a
  inb_S128x1024_S128x16_0_144 : ∀ a, (![0, 144] : Fin 2 → Nat) a + S128x16.size a ≤ S128x1024.size a
  inb_S256x1024_S256x16_0_160 : ∀ a, (![0, 160] : Fin 2 → Nat) a + S256x16.size a ≤ S256x1024.size a
  inb_S128x1024_S128x16_0_160 : ∀ a, (![0, 160] : Fin 2 → Nat) a + S128x16.size a ≤ S128x1024.size a
  inb_S256x1024_S256x16_0_176 : ∀ a, (![0, 176] : Fin 2 → Nat) a + S256x16.size a ≤ S256x1024.size a
  inb_S128x1024_S128x16_0_176 : ∀ a, (![0, 176] : Fin 2 → Nat) a + S128x16.size a ≤ S128x1024.size a
  inb_S256x1024_S256x16_0_192 : ∀ a, (![0, 192] : Fin 2 → Nat) a + S256x16.size a ≤ S256x1024.size a
  inb_S128x1024_S128x16_0_192 : ∀ a, (![0, 192] : Fin 2 → Nat) a + S128x16.size a ≤ S128x1024.size a
  inb_S256x1024_S256x16_0_208 : ∀ a, (![0, 208] : Fin 2 → Nat) a + S256x16.size a ≤ S256x1024.size a
  inb_S128x1024_S128x16_0_208 : ∀ a, (![0, 208] : Fin 2 → Nat) a + S128x16.size a ≤ S128x1024.size a
  inb_S256x1024_S256x16_0_224 : ∀ a, (![0, 224] : Fin 2 → Nat) a + S256x16.size a ≤ S256x1024.size a
  inb_S128x1024_S128x16_0_224 : ∀ a, (![0, 224] : Fin 2 → Nat) a + S128x16.size a ≤ S128x1024.size a
  inb_S256x1024_S256x16_0_240 : ∀ a, (![0, 240] : Fin 2 → Nat) a + S256x16.size a ≤ S256x1024.size a
  inb_S128x1024_S128x16_0_240 : ∀ a, (![0, 240] : Fin 2 → Nat) a + S128x16.size a ≤ S128x1024.size a
  inb_S256x1024_S256x16_0_256 : ∀ a, (![0, 256] : Fin 2 → Nat) a + S256x16.size a ≤ S256x1024.size a
  inb_S128x1024_S128x16_0_256 : ∀ a, (![0, 256] : Fin 2 → Nat) a + S128x16.size a ≤ S128x1024.size a
  inb_S256x1024_S256x16_0_272 : ∀ a, (![0, 272] : Fin 2 → Nat) a + S256x16.size a ≤ S256x1024.size a
  inb_S128x1024_S128x16_0_272 : ∀ a, (![0, 272] : Fin 2 → Nat) a + S128x16.size a ≤ S128x1024.size a
  inb_S256x1024_S256x16_0_288 : ∀ a, (![0, 288] : Fin 2 → Nat) a + S256x16.size a ≤ S256x1024.size a
  inb_S128x1024_S128x16_0_288 : ∀ a, (![0, 288] : Fin 2 → Nat) a + S128x16.size a ≤ S128x1024.size a
  inb_S256x1024_S256x16_0_304 : ∀ a, (![0, 304] : Fin 2 → Nat) a + S256x16.size a ≤ S256x1024.size a
  inb_S128x1024_S128x16_0_304 : ∀ a, (![0, 304] : Fin 2 → Nat) a + S128x16.size a ≤ S128x1024.size a
  inb_S256x1024_S256x16_0_320 : ∀ a, (![0, 320] : Fin 2 → Nat) a + S256x16.size a ≤ S256x1024.size a
  inb_S128x1024_S128x16_0_320 : ∀ a, (![0, 320] : Fin 2 → Nat) a + S128x16.size a ≤ S128x1024.size a
  inb_S256x1024_S256x16_0_336 : ∀ a, (![0, 336] : Fin 2 → Nat) a + S256x16.size a ≤ S256x1024.size a
  inb_S128x1024_S128x16_0_336 : ∀ a, (![0, 336] : Fin 2 → Nat) a + S128x16.size a ≤ S128x1024.size a
  inb_S256x1024_S256x16_0_352 : ∀ a, (![0, 352] : Fin 2 → Nat) a + S256x16.size a ≤ S256x1024.size a
  inb_S128x1024_S128x16_0_352 : ∀ a, (![0, 352] : Fin 2 → Nat) a + S128x16.size a ≤ S128x1024.size a
  inb_S256x1024_S256x16_0_368 : ∀ a, (![0, 368] : Fin 2 → Nat) a + S256x16.size a ≤ S256x1024.size a
  inb_S128x1024_S128x16_0_368 : ∀ a, (![0, 368] : Fin 2 → Nat) a + S128x16.size a ≤ S128x1024.size a
  inb_S256x1024_S256x16_0_384 : ∀ a, (![0, 384] : Fin 2 → Nat) a + S256x16.size a ≤ S256x1024.size a
  inb_S128x1024_S128x16_0_384 : ∀ a, (![0, 384] : Fin 2 → Nat) a + S128x16.size a ≤ S128x1024.size a
  inb_S256x1024_S256x16_0_400 : ∀ a, (![0, 400] : Fin 2 → Nat) a + S256x16.size a ≤ S256x1024.size a
  inb_S128x1024_S128x16_0_400 : ∀ a, (![0, 400] : Fin 2 → Nat) a + S128x16.size a ≤ S128x1024.size a
  inb_S256x1024_S256x16_0_416 : ∀ a, (![0, 416] : Fin 2 → Nat) a + S256x16.size a ≤ S256x1024.size a
  inb_S128x1024_S128x16_0_416 : ∀ a, (![0, 416] : Fin 2 → Nat) a + S128x16.size a ≤ S128x1024.size a
  inb_S256x1024_S256x16_0_432 : ∀ a, (![0, 432] : Fin 2 → Nat) a + S256x16.size a ≤ S256x1024.size a
  inb_S128x1024_S128x16_0_432 : ∀ a, (![0, 432] : Fin 2 → Nat) a + S128x16.size a ≤ S128x1024.size a
  inb_S256x1024_S256x16_0_448 : ∀ a, (![0, 448] : Fin 2 → Nat) a + S256x16.size a ≤ S256x1024.size a
  inb_S128x1024_S128x16_0_448 : ∀ a, (![0, 448] : Fin 2 → Nat) a + S128x16.size a ≤ S128x1024.size a
  inb_S256x1024_S256x16_0_464 : ∀ a, (![0, 464] : Fin 2 → Nat) a + S256x16.size a ≤ S256x1024.size a
  inb_S128x1024_S128x16_0_464 : ∀ a, (![0, 464] : Fin 2 → Nat) a + S128x16.size a ≤ S128x1024.size a
  inb_S256x1024_S256x16_0_480 : ∀ a, (![0, 480] : Fin 2 → Nat) a + S256x16.size a ≤ S256x1024.size a
  inb_S128x1024_S128x16_0_480 : ∀ a, (![0, 480] : Fin 2 → Nat) a + S128x16.size a ≤ S128x1024.size a
  inb_S256x1024_S256x16_0_496 : ∀ a, (![0, 496] : Fin 2 → Nat) a + S256x16.size a ≤ S256x1024.size a
  inb_S128x1024_S128x16_0_496 : ∀ a, (![0, 496] : Fin 2 → Nat) a + S128x16.size a ≤ S128x1024.size a
  inb_S256x1024_S256x16_0_512 : ∀ a, (![0, 512] : Fin 2 → Nat) a + S256x16.size a ≤ S256x1024.size a
  inb_S128x1024_S128x16_0_512 : ∀ a, (![0, 512] : Fin 2 → Nat) a + S128x16.size a ≤ S128x1024.size a
  inb_S256x1024_S256x16_0_528 : ∀ a, (![0, 528] : Fin 2 → Nat) a + S256x16.size a ≤ S256x1024.size a
  inb_S128x1024_S128x16_0_528 : ∀ a, (![0, 528] : Fin 2 → Nat) a + S128x16.size a ≤ S128x1024.size a
  inb_S256x1024_S256x16_0_544 : ∀ a, (![0, 544] : Fin 2 → Nat) a + S256x16.size a ≤ S256x1024.size a
  inb_S128x1024_S128x16_0_544 : ∀ a, (![0, 544] : Fin 2 → Nat) a + S128x16.size a ≤ S128x1024.size a
  inb_S256x1024_S256x16_0_560 : ∀ a, (![0, 560] : Fin 2 → Nat) a + S256x16.size a ≤ S256x1024.size a
  inb_S128x1024_S128x16_0_560 : ∀ a, (![0, 560] : Fin 2 → Nat) a + S128x16.size a ≤ S128x1024.size a
  inb_S256x1024_S256x16_0_576 : ∀ a, (![0, 576] : Fin 2 → Nat) a + S256x16.size a ≤ S256x1024.size a
  inb_S128x1024_S128x16_0_576 : ∀ a, (![0, 576] : Fin 2 → Nat) a + S128x16.size a ≤ S128x1024.size a
  inb_S256x1024_S256x16_0_592 : ∀ a, (![0, 592] : Fin 2 → Nat) a + S256x16.size a ≤ S256x1024.size a
  inb_S128x1024_S128x16_0_592 : ∀ a, (![0, 592] : Fin 2 → Nat) a + S128x16.size a ≤ S128x1024.size a
  inb_S256x1024_S256x16_0_608 : ∀ a, (![0, 608] : Fin 2 → Nat) a + S256x16.size a ≤ S256x1024.size a
  inb_S128x1024_S128x16_0_608 : ∀ a, (![0, 608] : Fin 2 → Nat) a + S128x16.size a ≤ S128x1024.size a
  inb_S256x1024_S256x16_0_624 : ∀ a, (![0, 624] : Fin 2 → Nat) a + S256x16.size a ≤ S256x1024.size a
  inb_S128x1024_S128x16_0_624 : ∀ a, (![0, 624] : Fin 2 → Nat) a + S128x16.size a ≤ S128x1024.size a
  inb_S256x1024_S256x16_0_640 : ∀ a, (![0, 640] : Fin 2 → Nat) a + S256x16.size a ≤ S256x1024.size a
  inb_S128x1024_S128x16_0_640 : ∀ a, (![0, 640] : Fin 2 → Nat) a + S128x16.size a ≤ S128x1024.size a
  inb_S256x1024_S256x16_0_656 : ∀ a, (![0, 656] : Fin 2 → Nat) a + S256x16.size a ≤ S256x1024.size a
  inb_S128x1024_S128x16_0_656 : ∀ a, (![0, 656] : Fin 2 → Nat) a + S128x16.size a ≤ S128x1024.size a
  inb_S256x1024_S256x16_0_672 : ∀ a, (![0, 672] : Fin 2 → Nat) a + S256x16.size a ≤ S256x1024.size a
  inb_S128x1024_S128x16_0_672 : ∀ a, (![0, 672] : Fin 2 → Nat) a + S128x16.size a ≤ S128x1024.size a
  inb_S256x1024_S256x16_0_688 : ∀ a, (![0, 688] : Fin 2 → Nat) a + S256x16.size a ≤ S256x1024.size a
  inb_S128x1024_S128x16_0_688 : ∀ a, (![0, 688] : Fin 2 → Nat) a + S128x16.size a ≤ S128x1024.size a
  inb_S256x1024_S256x16_0_704 : ∀ a, (![0, 704] : Fin 2 → Nat) a + S256x16.size a ≤ S256x1024.size a
  inb_S128x1024_S128x16_0_704 : ∀ a, (![0, 704] : Fin 2 → Nat) a + S128x16.size a ≤ S128x1024.size a
  inb_S256x1024_S256x16_0_720 : ∀ a, (![0, 720] : Fin 2 → Nat) a + S256x16.size a ≤ S256x1024.size a
  inb_S128x1024_S128x16_0_720 : ∀ a, (![0, 720] : Fin 2 → Nat) a + S128x16.size a ≤ S128x1024.size a
  inb_S256x1024_S256x16_0_736 : ∀ a, (![0, 736] : Fin 2 → Nat) a + S256x16.size a ≤ S256x1024.size a
  inb_S128x1024_S128x16_0_736 : ∀ a, (![0, 736] : Fin 2 → Nat) a + S128x16.size a ≤ S128x1024.size a
  inb_S256x1024_S256x16_0_752 : ∀ a, (![0, 752] : Fin 2 → Nat) a + S256x16.size a ≤ S256x1024.size a
  inb_S128x1024_S128x16_0_752 : ∀ a, (![0, 752] : Fin 2 → Nat) a + S128x16.size a ≤ S128x1024.size a
  inb_S256x1024_S256x16_0_768 : ∀ a, (![0, 768] : Fin 2 → Nat) a + S256x16.size a ≤ S256x1024.size a
  inb_S128x1024_S128x16_0_768 : ∀ a, (![0, 768] : Fin 2 → Nat) a + S128x16.size a ≤ S128x1024.size a
  inb_S256x1024_S256x16_0_784 : ∀ a, (![0, 784] : Fin 2 → Nat) a + S256x16.size a ≤ S256x1024.size a
  inb_S128x1024_S128x16_0_784 : ∀ a, (![0, 784] : Fin 2 → Nat) a + S128x16.size a ≤ S128x1024.size a
  inb_S256x1024_S256x16_0_800 : ∀ a, (![0, 800] : Fin 2 → Nat) a + S256x16.size a ≤ S256x1024.size a
  inb_S128x1024_S128x16_0_800 : ∀ a, (![0, 800] : Fin 2 → Nat) a + S128x16.size a ≤ S128x1024.size a
  inb_S256x1024_S256x16_0_816 : ∀ a, (![0, 816] : Fin 2 → Nat) a + S256x16.size a ≤ S256x1024.size a
  inb_S128x1024_S128x16_0_816 : ∀ a, (![0, 816] : Fin 2 → Nat) a + S128x16.size a ≤ S128x1024.size a
  inb_S256x1024_S256x16_0_832 : ∀ a, (![0, 832] : Fin 2 → Nat) a + S256x16.size a ≤ S256x1024.size a
  inb_S128x1024_S128x16_0_832 : ∀ a, (![0, 832] : Fin 2 → Nat) a + S128x16.size a ≤ S128x1024.size a
  inb_S256x1024_S256x16_0_848 : ∀ a, (![0, 848] : Fin 2 → Nat) a + S256x16.size a ≤ S256x1024.size a
  inb_S128x1024_S128x16_0_848 : ∀ a, (![0, 848] : Fin 2 → Nat) a + S128x16.size a ≤ S128x1024.size a
  inb_S256x1024_S256x16_0_864 : ∀ a, (![0, 864] : Fin 2 → Nat) a + S256x16.size a ≤ S256x1024.size a
  inb_S128x1024_S128x16_0_864 : ∀ a, (![0, 864] : Fin 2 → Nat) a + S128x16.size a ≤ S128x1024.size a
  inb_S256x1024_S256x16_0_880 : ∀ a, (![0, 880] : Fin 2 → Nat) a + S256x16.size a ≤ S256x1024.size a
  inb_S128x1024_S128x16_0_880 : ∀ a, (![0, 880] : Fin 2 → Nat) a + S128x16.size a ≤ S128x1024.size a
  inb_S256x1024_S256x16_0_896 : ∀ a, (![0, 896] : Fin 2 → Nat) a + S256x16.size a ≤ S256x1024.size a
  inb_S128x1024_S128x16_0_896 : ∀ a, (![0, 896] : Fin 2 → Nat) a + S128x16.size a ≤ S128x1024.size a
  inb_S256x1024_S256x16_0_912 : ∀ a, (![0, 912] : Fin 2 → Nat) a + S256x16.size a ≤ S256x1024.size a
  inb_S128x1024_S128x16_0_912 : ∀ a, (![0, 912] : Fin 2 → Nat) a + S128x16.size a ≤ S128x1024.size a
  inb_S256x1024_S256x16_0_928 : ∀ a, (![0, 928] : Fin 2 → Nat) a + S256x16.size a ≤ S256x1024.size a
  inb_S128x1024_S128x16_0_928 : ∀ a, (![0, 928] : Fin 2 → Nat) a + S128x16.size a ≤ S128x1024.size a
  inb_S256x1024_S256x16_0_944 : ∀ a, (![0, 944] : Fin 2 → Nat) a + S256x16.size a ≤ S256x1024.size a
  inb_S128x1024_S128x16_0_944 : ∀ a, (![0, 944] : Fin 2 → Nat) a + S128x16.size a ≤ S128x1024.size a
  inb_S256x1024_S256x16_0_960 : ∀ a, (![0, 960] : Fin 2 → Nat) a + S256x16.size a ≤ S256x1024.size a
  inb_S128x1024_S128x16_0_960 : ∀ a, (![0, 960] : Fin 2 → Nat) a + S128x16.size a ≤ S128x1024.size a
  inb_S256x1024_S256x16_0_976 : ∀ a, (![0, 976] : Fin 2 → Nat) a + S256x16.size a ≤ S256x1024.size a
  inb_S128x1024_S128x16_0_976 : ∀ a, (![0, 976] : Fin 2 → Nat) a + S128x16.size a ≤ S128x1024.size a
  inb_S256x1024_S256x16_0_992 : ∀ a, (![0, 992] : Fin 2 → Nat) a + S256x16.size a ≤ S256x1024.size a
  inb_S128x1024_S128x16_0_992 : ∀ a, (![0, 992] : Fin 2 → Nat) a + S128x16.size a ≤ S128x1024.size a
  inb_S256x1024_S256x16_0_1008 : ∀ a, (![0, 1008] : Fin 2 → Nat) a + S256x16.size a ≤ S256x1024.size a
  inb_S128x1024_S128x16_0_1008 : ∀ a, (![0, 1008] : Fin 2 → Nat) a + S128x16.size a ≤ S128x1024.size a
  slices_S2x1024x1024_S1x1024x1024_1_0_0 : S2x1024x1024.Slices ![1, 0, 0] S1x1024x1024
  slices_S2x1024_S1x1024_1_0 : S2x1024.Slices ![1, 0] S1x1024
  bcast_S1x1024_S1x1x1024_1_2 : S1x1024.BroadcastsInDim S1x1x1024 (![1, 2] : Fin 2 → Fin S1x1x1024.rank)
  bcast_S256x1024_S256x1x1024_0_2 : S256x1024.BroadcastsInDim S256x1x1024 (![0, 2] : Fin 2 → Fin S256x1x1024.rank)
  bcast_S1x1x1024_S256x1x1024_0_1_2 : S1x1x1024.BroadcastsInDim S256x1x1024 (![0, 1, 2] : Fin 3 → Fin S256x1x1024.rank)
  reducesTo_S256x1x1024_S256x1_d2 : S256x1x1024.ReducesTo [2] S256x1
  h_S_ : 0 < S_.numel
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S256x3.size a
  hwx0_0 : ∀ i : grid0.Coords, EltTy.bits .f32 = 32 ∨ (Rect.block (s := S256x3) S256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S1024x3.size a
  hwx0_1 : ∀ i : grid0.Coords, EltTy.bits .f32 = 32 ∨ (Rect.block (s := S1024x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x1024.size a
  hwx0_3 : ∀ i : grid0.Coords, EltTy.bits .f32 = 32 ∨ (Rect.block (s := S256x1024) S256x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S1024x1024.size a
  hwx1_1 : ∀ i : grid1.Coords, EltTy.bits .f32 = 32 ∨ (Rect.block (s := S1024x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x1024.size a
  hwx1_2 : ∀ i : grid1.Coords, EltTy.bits .f32 = 32 ∨ (Rect.block (s := S1x1024) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x1024.size a
  hwx1_3 : ∀ i : grid1.Coords, EltTy.bits .f32 = 32 ∨ (Rect.block (s := S256x1024) S256x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S256x1024.size a
  hwx2_0 : ∀ i : grid2.Coords, EltTy.bits .f32 = 32 ∨ (Rect.block (s := S256x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S1024x1024.size a
  hwx2_1 : ∀ i : grid2.Coords, EltTy.bits .f32 = 32 ∨ (Rect.block (s := S1024x1024) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x1024.size a
  hwx2_2 : ∀ i : grid2.Coords, EltTy.bits .f32 = 32 ∨ (Rect.block (s := S1x1024) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x1024.size a
  hwx2_3 : ∀ i : grid2.Coords, EltTy.bits .f32 = 32 ∨ (Rect.block (s := S256x1024) S256x128.size (cc2_transform_3 i) (hinb2_3 i)).WholeWords (EltTy.packing .f32)

variable [Facts₀]

abbrev win0_0 : Pipeline.Window sig grid0 :=
  Pipeline.Window.ofSpec (Memref.whole main_arg0) S256x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S256x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S256x3 : Shape := ⟨2, ![256, 3]⟩
abbrev S1024x3 : Shape := ⟨2, ![1024, 3]⟩
abbrev S1024 : Shape := ⟨1, ![1024]⟩
abbrev S2x1024x1024 : Shape := ⟨3, ![2, 1024, 1024]⟩
abbrev S2x1024 : Shape := ⟨2, ![2, 1024]⟩
abbrev S1x1024 : Shape := ⟨2, ![1, 1024]⟩
abbrev S1 : Shape := ⟨1, ![1]⟩
abbrev S1x1024x3 : Shape := ⟨3, ![1, 1024, 3]⟩
abbrev S256x1x3 : Shape := ⟨3, ![256, 1, 3]⟩
abbrev S256x1024x3 : Shape := ⟨3, ![256, 1024, 3]⟩
abbrev S_ : Shape := ⟨0, ![]⟩
abbrev S256x1024 : Shape := ⟨2, ![256, 1024]⟩
abbrev S1x1024x1024 : Shape := ⟨3, ![1, 1024, 1024]⟩
abbrev S1024x1024 : Shape := ⟨2, ![1024, 1024]⟩
abbrev S256x1x1024 : Shape := ⟨3, ![256, 1, 1024]⟩
abbrev S256x1024x1024 : Shape := ⟨3, ![256, 1024, 1024]⟩
abbrev S1x1x1024 : Shape := ⟨3, ![1, 1, 1024]⟩
abbrev S256x1 : Shape := ⟨2, ![256, 1]⟩
abbrev S1x1 : Shape := ⟨2, ![1, 1]⟩
abbrev S256 : Shape := ⟨1, ![256]⟩

abbrev nBuf : Space → Nat
  | .hbm => 55
  | .vmem => 0
  | .smem => 0
  | _ => 0

abbrev bufTy : (tb : Table) → Fin (tcTables nBuf tb) → BufTy
  | .hbm, ⟨0, _⟩ => ⟨S256x3, .f32⟩
  | .hbm, ⟨1, _⟩ => ⟨S1024x3, .f32⟩
  | .hbm, ⟨2, _⟩ => ⟨S1024, .f32⟩
  | .hbm, ⟨3, _⟩ => ⟨S2x1024x1024, .f32⟩
  | .hbm, ⟨4, _⟩ => ⟨S2x1024, .f32⟩
  | .hbm, ⟨5, _⟩ => ⟨S1x1024, .f32⟩
  | .hbm, ⟨6, _⟩ => ⟨S1, .f32⟩
  | .hbm, ⟨7, _⟩ => ⟨S1x1024x3, .f32⟩
  | .hbm, ⟨8, _⟩ => ⟨S256x1x3, .f32⟩
  | .hbm, ⟨9, _⟩ => ⟨S256x1024x3, .f32⟩
  | .hbm, ⟨10, _⟩ => ⟨S256x1024x3, .f32⟩
  | .hbm, ⟨11, _⟩ => ⟨S256x1024x3, .f32⟩
  | .hbm, ⟨12, _⟩ => ⟨S_, .f32⟩
  | .hbm, ⟨13, _⟩ => ⟨S256x1024, .f32⟩
  | .hbm, ⟨14, _⟩ => ⟨S1x1024, .f32⟩
  | .hbm, ⟨15, _⟩ => ⟨S256x1024, .f32⟩
  | .hbm, ⟨16, _⟩ => ⟨S256x1024, .f32⟩
  | .hbm, ⟨17, _⟩ => ⟨S1x1024x1024, .f32⟩
  | .hbm, ⟨18, _⟩ => ⟨S1024x1024, .f32⟩
  | .hbm, ⟨19, _⟩ => ⟨S1x1024, .f32⟩
  | .hbm, ⟨20, _⟩ => ⟨S1024, .f32⟩
  | .hbm, ⟨21, _⟩ => ⟨S1x1024x1024, .f32⟩
  | .hbm, ⟨22, _⟩ => ⟨S256x1x1024, .f32⟩
  | .hbm, ⟨23, _⟩ => ⟨S256x1024x1024, .f32⟩
  | .hbm, ⟨24, _⟩ => ⟨S256x1024x1024, .f32⟩
  | .hbm, ⟨25, _⟩ => ⟨S256x1024x1024, .f32⟩
  | .hbm, ⟨26, _⟩ => ⟨S_, .f32⟩
  | .hbm, ⟨27, _⟩ => ⟨S256x1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S1x1024x1024, .f32⟩
  | .hbm, ⟨32, _⟩ => ⟨S1024x1024, .f32⟩
  | .hbm, ⟨33, _⟩ => ⟨S1x1024, .f32⟩
  | .hbm, ⟨34, _⟩ => ⟨S1024, .f32⟩
  | .hbm, ⟨35, _⟩ => ⟨S1x1024x1024, .f32⟩
  | .hbm, ⟨36, _⟩ => ⟨S256x1x1024, .f32⟩
  | .hbm, ⟨37, _⟩ => ⟨S256x1024x1024, .f32⟩
  | .hbm, ⟨38, _⟩ => ⟨S256x1024x1024, .f32⟩
  | .hbm, ⟨39, _⟩ => ⟨S256x1024x1024, .f32⟩
  | .hbm, ⟨40, _⟩ => ⟨S_, .f32⟩
  | .hbm, ⟨41, _⟩ => ⟨S256x1024, .f32⟩
  | .hbm, ⟨42, _⟩ => ⟨S1x1024, .f32⟩
  | .hbm, ⟨43, _⟩ => ⟨S256x1024, .f32⟩
  | .hbm, ⟨44, _⟩ => ⟨S256x1024, .f32⟩
  | .hbm, ⟨45, _⟩ => ⟨S1x1x1024, .f32⟩
  | .hbm, ⟨46, _⟩ => ⟨S256x1x1024, .f32⟩
  | .hbm, ⟨47, _⟩ => ⟨S256x1x1024, .f32⟩
  | .hbm, ⟨48, _⟩ => ⟨S256x1x1024, .f32⟩
  | .hbm, ⟨49, _⟩ => ⟨S_, .f32⟩
  | .hbm, ⟨50, _⟩ => ⟨S256x1, .f32⟩
  | .hbm, ⟨51, _⟩ => ⟨S1x1, .f32⟩
  | .hbm, ⟨52, _⟩ => ⟨S256x1, .f32⟩
  | .hbm, ⟨53, _⟩ => ⟨S256x1, .f32⟩
  | .hbm, ⟨54, _⟩ => ⟨S256, .f32⟩
  | _, _ => ⟨S256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S1024x3_S1x1024x3_1_2 : S1024x3.BroadcastsInDim S1x1024x3 (![1, 2] : Fin 2 → Fin S1x1024x3.rank)
  bcast_S256x3_S256x1x3_0_2 : S256x3.BroadcastsInDim S256x1x3 (![0, 2] : Fin 2 → Fin S256x1x3.rank)
  bcast_S1x1024x3_S256x1024x3_0_1_2 : S1x1024x3.BroadcastsInDim S256x1024x3 (![0, 1, 2] : Fin 3 → Fin S256x1024x3.rank)
  bcast_S256x1x3_S256x1024x3_0_1_2 : S256x1x3.BroadcastsInDim S256x1024x3 (![0, 1, 2] : Fin 3 → Fin S256x1024x3.rank)
  reducesTo_S256x1024x3_S256x1024_d2 : S256x1024x3.ReducesTo [2] S256x1024
  h_S_ : 0 < S_.numel
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  slices_S2x1024x1024_S1x1024x1024_0_0_0 : S2x1024x1024.Slices ![0, 0, 0] S1x1024x1024
  shapeCasts_S1x1024x1024_S1024x1024 : S1x1024x1024.ShapeCasts S1024x1024
  slices_S2x1024_S1x1024_0_0 : S2x1024.Slices ![0, 0] S1x1024
  shapeCasts_S1x1024_S1024 : S1x1024.ShapeCasts S1024
  bcast_S1024x1024_S1x1024x1024_1_2 : S1024x1024.BroadcastsInDim S1x1024x1024 (![1, 2] : Fin 2 → Fin S1x1024x1024.rank)
  bcast_S256x1024_S256x1x1024_0_2 : S256x1024.BroadcastsInDim S256x1x1024 (![0, 2] : Fin 2 → Fin S256x1x1024.rank)
  bcast_S1x1024x1024_S256x1024x1024_0_1_2 : S1x1024x1024.BroadcastsInDim S256x1024x1024 (![0, 1, 2] : Fin 3 → Fin S256x1024x1024.rank)
  bcast_S256x1x1024_S256x1024x1024_0_1_2 : S256x1x1024.BroadcastsInDim S256x1024x1024 (![0, 1, 2] : Fin 3 → Fin S256x1024x1024.rank)
  reducesTo_S256x1024x1024_S256x1024_d2 : S256x1024x1024.ReducesTo [2] S256x1024
  slices_S2x1024x1024_S1x1024x1024_1_0_0 : S2x1024x1024.Slices ![1, 0, 0] S1x1024x1024
  slices_S2x1024_S1x1024_1_0 : S2x1024.Slices ![1, 0] S1x1024
  bcast_S1x1024_S1x1x1024_1_2 : S1x1024.BroadcastsInDim S1x1x1024 (![1, 2] : Fin 2 → Fin S1x1x1024.rank)
  bcast_S1x1x1024_S256x1x1024_0_1_2 : S1x1x1024.BroadcastsInDim S256x1x1024 (![0, 1, 2] : Fin 3 → Fin S256x1x1024.rank)
  reducesTo_S256x1x1024_S256x1_d2 : S256x1x1024.ReducesTo [2] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256

variable [Facts₀]

class Facts : Prop extends Facts₀ where

variable [Facts]
-- ==== Proof.RunResult.lean ====
import proofs.«166816_j60120952209906_2_alg».proof.Proof.Gen.KernelIdeal.Frame

set_option maxRecDepth 16384

noncomputable section

namespace Cert.KernelIdeal.Trop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    last stretch of host operations leaves (the fold of the host stretches and the three regions' write-backs from
    the launch memory, read at the result), and the seven argument arrays end as launched. -/
theorem run_result : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Trop

end
-- ==== Proof.Layer.lean ====
import proofs.«166816_j60120952209906_2_alg».proof.Proof.Gen.KernelIdeal
import Idealize.ShloMosaic.PureOps.Ideal
import Idealize.ShloMosaic.Lib.ValueIdx

noncomputable section

open Idealize.ShloMosaic Idealize.ShloMosaic.TcCoe Idealize.ShloMosaic.ValueIdx

namespace Cert.KernelIdeal.Trop

open Cert.KernelIdeal Cert.KernelIdeal.Gen

/-- One tropical (max-plus) layer of contraction length 3, at row `r` and output column `q`: the largest product
    `W[q, k] * H[r, k]` over `k` (from `-∞`), plus the bias `B[0, q]`. -/
def layerAt3 (H : Vec Ideal S256x3 .f32) (W : Vec Ideal S1024x3 .f32) (B : Vec Ideal S1x1024 .f32) (r : Fin 256) (q : Fin 1024) : EReal :=
  (Finset.univ : Finset (Fin 3)).fold max (⊥ : EReal) (fun k => W (ix2 q k) * H (ix2 r k)) + B (ix2 0 q)

/-- The layer as one function of the three arrays, index by index. -/
def layer3 (H : Vec Ideal S256x3 .f32) (W : Vec Ideal S1024x3 .f32) (B : Vec Ideal S1x1024 .f32) : Vec Ideal S256x1024 .f32 :=
  fun i => layerAt3 H W B ⟨(i 0).val, idx2_lt0 i⟩ ⟨(i 1).val, idx2_lt1 i⟩

/-- One tropical (max-plus) layer of contraction length 1024, at row `r` and output column `q`: the largest product
    `W[q, k] * H[r, k]` over `k` (from `-∞`), plus the bias `B[0, q]`. -/
def layerAt1024 (H : Vec Ideal S256x1024 .f32) (W : Vec Ideal S1024x1024 .f32) (B : Vec Ideal S1x1024 .f32) (r : Fin 256) (q : Fin 1024) : EReal :=
  (Finset.univ : Finset (Fin 1024)).fold max (⊥ : EReal) (fun k => W (ix2 q k) * H (ix2 r k)) + B (ix2 0 q)

/-- The layer as one function of the three arrays, index by index. -/
def layer1024 (H : Vec Ideal S256x1024 .f32) (W : Vec Ideal S1024x1024 .f32) (B : Vec Ideal S1x1024 .f32) : Vec Ideal S256x1024 .f32 :=
  fun i => layerAt1024 H W B ⟨(i 0).val, idx2_lt0 i⟩ ⟨(i 1).val, idx2_lt1 i⟩

end Cert.KernelIdeal.Trop

end
-- ==== Proof.Network.lean ====
import proofs.«166816_j60120952209906_2_alg».proof.Proof.Layer
import Idealize.ShloMosaic.PureOps.Ideal

noncomputable section

open Idealize.ShloMosaic Idealize.ShloMosaic.TcCoe Idealize.ShloMosaic.ValueIdx

namespace Cert.KernelIdeal.Trop

open Cert.KernelIdeal Cert.KernelIdeal.Gen

/-- The first layer's bias as a row. -/
def bFirst (a2 : Vec Ideal S1024 .f32) : Vec Ideal S1x1024 .f32 :=
  shapeCast S1x1024 a2 shapeCasts_S1024_S1x1024

/-- The weights of the first hidden layer: slab 0 of the stacked hidden weights. -/
def wHidden0 (a3 : Vec Ideal S2x1024x1024 .f32) : Vec Ideal S1024x1024 .f32 :=
  shapeCast S1024x1024 (extractStridedSlice S1x1024x1024 ![0, 0, 0] a3 slices_S2x1024x1024_S1x1024x1024_0_0_0) shapeCasts_S1x1024x1024_S1024x1024

/-- The weights of the second hidden layer: slab 1. -/
def wHidden1 (a3 : Vec Ideal S2x1024x1024 .f32) : Vec Ideal S1024x1024 .f32 :=
  shapeCast S1024x1024 (extractStridedSlice S1x1024x1024 ![1, 0, 0] a3 slices_S2x1024x1024_S1x1024x1024_1_0_0) shapeCasts_S1x1024x1024_S1024x1024

/-- The bias of the first hidden layer: row 0 of the stacked hidden biases, as a vector. -/
def bVec0 (a4 : Vec Ideal S2x1024 .f32) : Vec Ideal S1024 .f32 :=
  shapeCast S1024 (extractStridedSlice S1x1024 ![0, 0] a4 slices_S2x1024_S1x1024_0_0) shapeCasts_S1x1024_S1024

/-- The bias of the second hidden layer: row 1. -/
def bVec1 (a4 : Vec Ideal S2x1024 .f32) : Vec Ideal S1024 .f32 :=
  shapeCast S1024 (extractStridedSlice S1x1024 ![1, 0] a4 slices_S2x1024_S1x1024_1_0) shapeCasts_S1x1024_S1024

/-- The last layer (one output column), as the host computes it: the products `w[0, k] * h[r, k]`, their maximum over
    `k` from `-∞`, plus the bias, as a vector of 256 entries. -/
def lastLayer (a5 : Vec Ideal S1x1024 .f32) (h : Vec Ideal S256x1024 .f32) (a6 : Vec Ideal S1 .f32) : Vec Ideal S256 .f32 :=
  shapeCast S256
    (addf (F := Ideal) (φ := .f32)
      (Host.reduce (FloatOps.maximumf (F := Ideal) (φ := .f32))
        (mulf (F := Ideal) (φ := .f32)
          (broadcastInDim S256x1x1024 ![0, 1, 2] bcast_S1x1x1024_S256x1x1024_0_1_2
            (broadcastInDim S1x1x1024 ![1, 2] bcast_S1x1024_S1x1x1024_1_2 a5))
          (broadcastInDim S256x1x1024 ![0, 2] bcast_S256x1024_S256x1x1024_0_2 h))
        (constant (F := Ideal) S_ .f32 0xFF800000#32) reducesTo_S256x1x1024_S256x1_d2 h_S_)
      (broadcastInDim S256x1 ![0, 1] bcast_S1x1_S256x1_0_1 (broadcastInDim S1x1 ![1] bcast_S1_S1x1_1 a6)))
    shapeCasts_S256x1_S256

/-- The whole network: three tropical layers (contraction lengths 3, 1024, 1024) and the last host layer. -/
def network (a0 : Vec Ideal S256x3 .f32) (a1 : Vec Ideal S1024x3 .f32) (a2 : Vec Ideal S1024 .f32)
    (a3 : Vec Ideal S2x1024x1024 .f32) (a4 : Vec Ideal S2x1024 .f32) (a5 : Vec Ideal S1x1024 .f32)
    (a6 : Vec Ideal S1 .f32) : Vec Ideal S256 .f32 :=
  lastLayer a5
    (layer1024
      (layer1024 (layer3 a0 a1 (bFirst a2)) (wHidden0 a3) (shapeCast S1x1024 (bVec0 a4) shapeCasts_S1024_S1x1024))
      (wHidden1 a3) (shapeCast S1x1024 (bVec1 a4) shapeCasts_S1024_S1x1024))
    a6

end Cert.KernelIdeal.Trop

end
-- ==== Proof.ChunkStep.lean ====
import proofs.«166816_j60120952209906_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.KernelIdeal.Trop

open Cert.KernelIdeal Cert.KernelIdeal.Gen

/-- The word `0xFF800000` is `-∞`, the bottom of the extended reals. -/
theorem negInf : FloatOps.ofBits (F := Ideal) .f32 0xFF800000#32 = (⊥ : EReal) := by
  show Ideal.ofBits .f32 0xFF800000#32 = ⊥
  simp [Ideal.ofBits, Ideal.ieee]

/-- One step of the running maximum over a slice of 16 contraction coordinates: the accumulator against the
    largest of the 16 products `w[j, l] * x[r, l]` of the slice, taken from `-∞`. -/
def step16 (xc : Vec Ideal S256x16 .f32) (wc : Vec Ideal S128x16 .f32) (acc : Vec Ideal S256x128 .f32) :
    FVec Ideal S256x128 .f32 :=
  shapeCast S256x128 (maximumf acc (multiReduction .maximumf [2] S256x128
    (mulf (broadcastTo S256x128x16 (shapeCast S1x128x16 (shapeCast S128x16 wc shapeCasts_S128x16_S128x16) shapeCasts_S128x16_S1x128x16) broadcasts_S1x128x16_S256x128x16)
          (broadcastTo S256x128x16 (shapeCast S256x1x16 (shapeCast S256x16 xc shapeCasts_S256x16_S256x16) shapeCasts_S256x16_S256x1x16) broadcasts_S256x1x16_S256x128x16))
    0xFF800000#32 reduces_S256x128x16_S256x128 (.inl rfl) rfl)) shapeCasts_S256x128_S256x128

set_option backward.isDefEq.respectTransparency.types false in
/-- The source index above `(r, j)` with coordinate `l` on the reduced axis is `(r, j, l)`. -/
theorem lift16 (r : Fin 256) (j : Fin 128) (l : Fin 16) :
    reduces_S256x128x16_S256x128.lift (ix2 r j) l = ix3 r j l := by
  funext c
  apply Fin.ext
  show reduces_S256x128x16_S256x128.liftVal (ix2 r j) l.val c = (ix3 r j l c).val
  match c with
  | ⟨0, _⟩ => simp [Shape.Reduces.liftVal]
  | ⟨1, _⟩ => simp [Shape.Reduces.liftVal]
  | ⟨2, _⟩ => simp [Shape.Reduces.liftVal]

set_option backward.isDefEq.respectTransparency.types false in
/-- A maximum over the last axis taken from `-∞`, read at `(r, j)`: the largest of the 16 entries `(r, j, l)`. -/
theorem rowmax16 (src : FVec Ideal S256x128x16 .f32) (hφ : FKind.Formats .f32)
    (hacc : (0xFF800000#32 : BitVec 32) = FKind.maximumf.neutral .f32 hφ) (r : Fin 256) (j : Fin 128) :
    multiReduction .maximumf [2] S256x128 src 0xFF800000#32 reduces_S256x128x16_S256x128 hφ hacc (ix2 r j)
      = (Finset.univ : Finset (Fin 16)).fold max (⊥ : EReal) (fun l => src (ix3 r j l)) := by
  refine (Ideal.multiReduction_maximumf_single src 0xFF800000#32 reduces_S256x128x16_S256x128 hφ hacc (ix2 r j)).trans ?_
  refine congrArg₂ (fun b f => (Finset.univ : Finset (Fin 16)).fold max b f) negInf (funext fun l => ?_)
  exact congrArg src (lift16 r j l)

/-- The weight slice, given a leading unit axis and repeated down the 256 rows, read at `(r, j, l)`. -/
theorem wb16_apply (wc : Vec Ideal S128x16 .f32) (r : Fin 256) (j : Fin 128) (l : Fin 16) :
    broadcastTo S256x128x16 (shapeCast S1x128x16 (shapeCast S128x16 wc shapeCasts_S128x16_S128x16) shapeCasts_S128x16_S1x128x16) broadcasts_S1x128x16_S256x128x16 (ix3 r j l)
      = wc (ix2 j l) := by
  rw [shapeCast_self]
  rw [broadcastTo_apply _ broadcasts_S1x128x16_S256x128x16 (ix3 r j l) (ix3 (0 : Fin 1) j l) (fun a => by
    match a with
    | ⟨0, _⟩ => rfl
    | ⟨1, _⟩ => rfl
    | ⟨2, _⟩ => rfl)]
  exact shapeCast_ab_1ab_apply wc shapeCasts_S128x16_S1x128x16 0 j l

/-- The activation slice, given a middle unit axis and repeated across the 128 output columns, read at `(r, j, l)`. -/
theorem xb16_apply (xc : Vec Ideal S256x16 .f32) (r : Fin 256) (j : Fin 128) (l : Fin 16) :
    broadcastTo S256x128x16 (shapeCast S256x1x16 (shapeCast S256x16 xc shapeCasts_S256x16_S256x16) shapeCasts_S256x16_S256x1x16) broadcasts_S256x1x16_S256x128x16 (ix3 r j l)
      = xc (ix2 r l) := by
  rw [shapeCast_self]
  rw [broadcastTo_apply _ broadcasts_S256x1x16_S256x128x16 (ix3 r j l) (ix3 r (0 : Fin 1) l) (fun a => by
    match a with
    | ⟨0, _⟩ => rfl
    | ⟨1, _⟩ => rfl
    | ⟨2, _⟩ => rfl)]
  exact shapeCast_apply xc shapeCasts_S256x16_S256x1x16 (ix3 r (0 : Fin 1) l) (ix2 r l) (by
    rw [Shape.rowMajor_val_three, Shape.rowMajor_val_two]
    show r.val * 16 + l.val = (r.val * 1 + 0) * 16 + l.val
    rw [Nat.mul_one, Nat.add_zero])

/-- The step read at `(r, j)`. -/
theorem step16_apply (xc : Vec Ideal S256x16 .f32) (wc : Vec Ideal S128x16 .f32) (acc : Vec Ideal S256x128 .f32)
    (r : Fin 256) (j : Fin 128) :
    step16 xc wc acc (ix2 r j)
      = max (acc (ix2 r j)) ((Finset.univ : Finset (Fin 16)).fold max (⊥ : EReal) (fun l => wc (ix2 j l) * xc (ix2 r l))) := by
  unfold step16
  rw [shapeCast_self, maximumf_apply]
  refine congrArg (max (acc (ix2 r j))) ((rowmax16 _ _ _ r j).trans ?_)
  refine congrArg (fun f => (Finset.univ : Finset (Fin 16)).fold max (⊥ : EReal) f) (funext fun l => ?_)
  rw [mulf_apply, wb16_apply, xb16_apply]

/-- One step of the running maximum over a slice of 3 contraction coordinates: the accumulator against the
    largest of the 3 products `w[j, l] * x[r, l]` of the slice, taken from `-∞`. -/
def step3 (xc : Vec Ideal S256x3 .f32) (wc : Vec Ideal S128x3 .f32) (acc : Vec Ideal S256x128 .f32) :
    FVec Ideal S256x128 .f32 :=
  shapeCast S256x128 (maximumf acc (multiReduction .maximumf [2] S256x128
    (mulf (broadcastTo S256x128x3 (shapeCast S1x128x3 wc shapeCasts_S128x3_S1x128x3) broadcasts_S1x128x3_S256x128x3)
          (broadcastTo S256x128x3 (shapeCast S256x1x3 xc shapeCasts_S256x3_S256x1x3) broadcasts_S256x1x3_S256x128x3))
    0xFF800000#32 reduces_S256x128x3_S256x128 (.inl rfl) rfl)) shapeCasts_S256x128_S256x128

set_option backward.isDefEq.respectTransparency.types false in
/-- The source index above `(r, j)` with coordinate `l` on the reduced axis is `(r, j, l)`. -/
theorem lift3 (r : Fin 256) (j : Fin 128) (l : Fin 3) :
    reduces_S256x128x3_S256x128.lift (ix2 r j) l = ix3 r j l := by
  funext c
  apply Fin.ext
  show reduces_S256x128x3_S256x128.liftVal (ix2 r j) l.val c = (ix3 r j l c).val
  match c with
  | ⟨0, _⟩ => simp [Shape.Reduces.liftVal]
  | ⟨1, _⟩ => simp [Shape.Reduces.liftVal]
  | ⟨2, _⟩ => simp [Shape.Reduces.liftVal]

set_option backward.isDefEq.respectTransparency.types false in
/-- A maximum over the last axis taken from `-∞`, read at `(r, j)`: the largest of the 3 entries `(r, j, l)`. -/
theorem rowmax3 (src : FVec Ideal S256x128x3 .f32) (hφ : FKind.Formats .f32)
    (hacc : (0xFF800000#32 : BitVec 32) = FKind.maximumf.neutral .f32 hφ) (r : Fin 256) (j : Fin 128) :
    multiReduction .maximumf [2] S256x128 src 0xFF800000#32 reduces_S256x128x3_S256x128 hφ hacc (ix2 r j)
      = (Finset.univ : Finset (Fin 3)).fold max (⊥ : EReal) (fun l => src (ix3 r j l)) := by
  refine (Ideal.multiReduction_maximumf_single src 0xFF800000#32 reduces_S256x128x3_S256x128 hφ hacc (ix2 r j)).trans ?_
  refine congrArg₂ (fun b f => (Finset.univ : Finset (Fin 3)).fold max b f) negInf (funext fun l => ?_)
  exact congrArg src (lift3 r j l)

/-- The weight slice, given a leading unit axis and repeated down the 256 rows, read at `(r, j, l)`. -/
theorem wb3_apply (wc : Vec Ideal S128x3 .f32) (r : Fin 256) (j : Fin 128) (l : Fin 3) :
    broadcastTo S256x128x3 (shapeCast S1x128x3 wc shapeCasts_S128x3_S1x128x3) broadcasts_S1x128x3_S256x128x3 (ix3 r j l)
      = wc (ix2 j l) := by
  rw [broadcastTo_apply _ broadcasts_S1x128x3_S256x128x3 (ix3 r j l) (ix3 (0 : Fin 1) j l) (fun a => by
    match a with
    | ⟨0, _⟩ => rfl
    | ⟨1, _⟩ => rfl
    | ⟨2, _⟩ => rfl)]
  exact shapeCast_ab_1ab_apply wc shapeCasts_S128x3_S1x128x3 0 j l

/-- The activation slice, given a middle unit axis and repeated across the 128 output columns, read at `(r, j, l)`. -/
theorem xb3_apply (xc : Vec Ideal S256x3 .f32) (r : Fin 256) (j : Fin 128) (l : Fin 3) :
    broadcastTo S256x128x3 (shapeCast S256x1x3 xc shapeCasts_S256x3_S256x1x3) broadcasts_S256x1x3_S256x128x3 (ix3 r j l)
      = xc (ix2 r l) := by
  rw [broadcastTo_apply _ broadcasts_S256x1x3_S256x128x3 (ix3 r j l) (ix3 r (0 : Fin 1) l) (fun a => by
    match a with
    | ⟨0, _⟩ => rfl
    | ⟨1, _⟩ => rfl
    | ⟨2, _⟩ => rfl)]
  exact shapeCast_apply xc shapeCasts_S256x3_S256x1x3 (ix3 r (0 : Fin 1) l) (ix2 r l) (by
    rw [Shape.rowMajor_val_three, Shape.rowMajor_val_two]
    show r.val * 3 + l.val = (r.val * 1 + 0) * 3 + l.val
    rw [Nat.mul_one, Nat.add_zero])

/-- The step read at `(r, j)`. -/
theorem step3_apply (xc : Vec Ideal S256x3 .f32) (wc : Vec Ideal S128x3 .f32) (acc : Vec Ideal S256x128 .f32)
    (r : Fin 256) (j : Fin 128) :
    step3 xc wc acc (ix2 r j)
      = max (acc (ix2 r j)) ((Finset.univ : Finset (Fin 3)).fold max (⊥ : EReal) (fun l => wc (ix2 j l) * xc (ix2 r l))) := by
  unfold step3
  rw [shapeCast_self, maximumf_apply]
  refine congrArg (max (acc (ix2 r j))) ((rowmax3 _ _ _ r j).trans ?_)
  refine congrArg (fun f => (Finset.univ : Finset (Fin 3)).fold max (⊥ : EReal) f) (funext fun l => ?_)
  rw [mulf_apply, wb3_apply, xb3_apply]

end Cert.KernelIdeal.Trop

end
-- ==== Proof.RunMax.lean ====
import proofs.«166816_j60120952209906_2_alg».proof.Proof.ChunkStep

noncomputable section

open Idealize.ShloMosaic Idealize.ShloMosaic.TcCoe Idealize.ShloMosaic.ValueIdx

namespace Cert.KernelIdeal.Trop

open Cert.KernelIdeal Cert.KernelIdeal.Gen

/-! ### Contraction length 1024, slices of 16 -/

/-- `acc` holds at every `(r, j)` the largest of the products `w[j, k] * x[r, k]` over the contraction coordinates
    `k < n` (`-∞` when there is none), said through its upper bounds: it lies below `c` exactly when each of those
    products does. -/
structure MaxBelow1024 (x : Vec Ideal S256x1024 .f32) (w : Vec Ideal S128x1024 .f32) (n : Nat) (acc : Vec Ideal S256x128 .f32) : Prop where
  le_iff : ∀ (r : Fin 256) (j : Fin 128) (c : EReal),
    acc (ix2 r j) ≤ c ↔ ∀ k : Fin 1024, k.val < n → w (ix2 j k) * x (ix2 r k) ≤ c

/-- Columns `o … o + 15` of the activation block, read at `(r, l)`: column `o + l`. -/
theorem ldx1024 (x : Vec Ideal S256x1024 .f32) (o : Nat)
    (inb : ∀ a, (![0, o] : Fin 2 → Nat) a + S256x16.size a ≤ S256x1024.size a) (r : Fin 256) (l : Fin 16)
    (k : Fin 1024) (hk : k.val = o + l.val) :
    View.ld x (Rect.unit (s := S256x1024) ![0, o] S256x16.size inb) (ix2 r l) = x (ix2 r k) := by
  show x ((Rect.unit (s := S256x1024) ![0, o] S256x16.size inb).emb (ix2 r l)) = _
  refine congrArg x (funext fun a => Fin.ext ?_)
  match a with
  | ⟨0, _⟩ => show 0 + 1 * r.val = r.val; omega
  | ⟨1, _⟩ => show o + 1 * l.val = k.val; omega

/-- Columns `o … o + 15` of the weight block, read at `(j, l)`: column `o + l`. -/
theorem ldw1024 (w : Vec Ideal S128x1024 .f32) (o : Nat)
    (inb : ∀ a, (![0, o] : Fin 2 → Nat) a + S128x16.size a ≤ S128x1024.size a) (j : Fin 128) (l : Fin 16)
    (k : Fin 1024) (hk : k.val = o + l.val) :
    View.ld w (Rect.unit (s := S128x1024) ![0, o] S128x16.size inb) (ix2 j l) = w (ix2 j k) := by
  show w ((Rect.unit (s := S128x1024) ![0, o] S128x16.size inb).emb (ix2 j l)) = _
  refine congrArg w (funext fun a => Fin.ext ?_)
  match a with
  | ⟨0, _⟩ => show 0 + 1 * j.val = j.val; omega
  | ⟨1, _⟩ => show o + 1 * l.val = k.val; omega

/-- Before any slice the accumulator is `-∞` everywhere: the maximum over no coordinate. -/
theorem MaxBelow1024.base (x : Vec Ideal S256x1024 .f32) (w : Vec Ideal S128x1024 .f32) :
    MaxBelow1024 x w 0 (shapeCast S256x128 (broadcast S256x128 (Scalar.ofBits (F := Ideal) .f32 0xFF800000#32)) shapeCasts_S256x128_S256x128) := by
  refine ⟨fun r j c => ?_⟩
  rw [shapeCast_self, broadcast_apply]
  constructor
  · intro _ k hk; exact absurd hk (Nat.not_lt_zero _)
  · intro _; exact (le_of_eq negInf).trans bot_le

/-- One slice more: from the maximum below `o` to the maximum below `o + 16`. -/
theorem MaxBelow1024.step (x : Vec Ideal S256x1024 .f32) (w : Vec Ideal S128x1024 .f32) (o : Nat)
    (inbx : ∀ a, (![0, o] : Fin 2 → Nat) a + S256x16.size a ≤ S256x1024.size a)
    (inbw : ∀ a, (![0, o] : Fin 2 → Nat) a + S128x16.size a ≤ S128x1024.size a)
    (acc : Vec Ideal S256x128 .f32) (h : MaxBelow1024 x w o acc) :
    MaxBelow1024 x w (o + 16)
      (step16 (View.ld x (Rect.unit (s := S256x1024) ![0, o] S256x16.size inbx))
        (View.ld w (Rect.unit (s := S128x1024) ![0, o] S128x16.size inbw)) acc) := by
  have ho : o + 16 ≤ 1024 := inbx 1
  refine ⟨fun r j c => ?_⟩
  rw [step16_apply, max_le_iff, h.le_iff r j c, Finset.fold_max_le]
  constructor
  · rintro ⟨h1, -, h2⟩ k hk
    by_cases hlt : k.val < o
    · exact h1 k hlt
    · have hl : k.val - o < 16 := by omega
      have := h2 ⟨k.val - o, hl⟩ (Finset.mem_univ _)
      rwa [ldw1024 w o inbw j ⟨k.val - o, hl⟩ k (by show k.val = o + (k.val - o); omega),
        ldx1024 x o inbx r ⟨k.val - o, hl⟩ k (by show k.val = o + (k.val - o); omega)] at this
  · intro h'
    refine ⟨fun k hk => h' k (by omega), bot_le, fun l _ => ?_⟩
    have hk : o + l.val < 1024 := by have := l.isLt; omega
    rw [ldw1024 w o inbw j l ⟨o + l.val, hk⟩ rfl, ldx1024 x o inbx r l ⟨o + l.val, hk⟩ rfl]
    exact h' ⟨o + l.val, hk⟩ (by show o + l.val < o + 16; have := l.isLt; omega)

/-- After the last slice the accumulator is the maximum over the whole contraction axis. -/
theorem MaxBelow1024.all (x : Vec Ideal S256x1024 .f32) (w : Vec Ideal S128x1024 .f32) (acc : Vec Ideal S256x128 .f32)
    (h : MaxBelow1024 x w 1024 acc) (r : Fin 256) (j : Fin 128) :
    acc (ix2 r j) = (Finset.univ : Finset (Fin 1024)).fold max (⊥ : EReal) (fun k => w (ix2 j k) * x (ix2 r k)) := by
  refine eq_of_forall_ge_iff fun c => ?_
  rw [h.le_iff r j c, Finset.fold_max_le]
  exact ⟨fun h' => ⟨bot_le, fun k _ => h' k k.isLt⟩, fun h' k _ => h'.2 k (Finset.mem_univ k)⟩

/-! ### Contraction length 3, slices of 3 -/

/-- `acc` holds at every `(r, j)` the largest of the products `w[j, k] * x[r, k]` over the contraction coordinates
    `k < n` (`-∞` when there is none), said through its upper bounds: it lies below `c` exactly when each of those
    products does. -/
structure MaxBelow3 (x : Vec Ideal S256x3 .f32) (w : Vec Ideal S128x3 .f32) (n : Nat) (acc : Vec Ideal S256x128 .f32) : Prop where
  le_iff : ∀ (r : Fin 256) (j : Fin 128) (c : EReal),
    acc (ix2 r j) ≤ c ↔ ∀ k : Fin 3, k.val < n → w (ix2 j k) * x (ix2 r k) ≤ c

/-- Columns `o … o + 2` of the activation block, read at `(r, l)`: column `o + l`. -/
theorem ldx3 (x : Vec Ideal S256x3 .f32) (o : Nat)
    (inb : ∀ a, (![0, o] : Fin 2 → Nat) a + S256x3.size a ≤ S256x3.size a) (r : Fin 256) (l : Fin 3)
    (k : Fin 3) (hk : k.val = o + l.val) :
    View.ld x (Rect.unit (s := S256x3) ![0, o] S256x3.size inb) (ix2 r l) = x (ix2 r k) := by
  show x ((Rect.unit (s := S256x3) ![0, o] S256x3.size inb).emb (ix2 r l)) = _
  refine congrArg x (funext fun a => Fin.ext ?_)
  match a with
  | ⟨0, _⟩ => show 0 + 1 * r.val = r.val; omega
  | ⟨1, _⟩ => show o + 1 * l.val = k.val; omega

/-- Columns `o … o + 2` of the weight block, read at `(j, l)`: column `o + l`. -/
theorem ldw3 (w : Vec Ideal S128x3 .f32) (o : Nat)
    (inb : ∀ a, (![0, o] : Fin 2 → Nat) a + S128x3.size a ≤ S128x3.size a) (j : Fin 128) (l : Fin 3)
    (k : Fin 3) (hk : k.val = o + l.val) :
    View.ld w (Rect.unit (s := S128x3) ![0, o] S128x3.size inb) (ix2 j l) = w (ix2 j k) := by
  show w ((Rect.unit (s := S128x3) ![0, o] S128x3.size inb).emb (ix2 j l)) = _
  refine congrArg w (funext fun a => Fin.ext ?_)
  match a with
  | ⟨0, _⟩ => show 0 + 1 * j.val = j.val; omega
  | ⟨1, _⟩ => show o + 1 * l.val = k.val; omega

/-- Before any slice the accumulator is `-∞` everywhere: the maximum over no coordinate. -/
theorem MaxBelow3.base (x : Vec Ideal S256x3 .f32) (w : Vec Ideal S128x3 .f32) :
    MaxBelow3 x w 0 (shapeCast S256x128 (broadcast S256x128 (Scalar.ofBits (F := Ideal) .f32 0xFF800000#32)) shapeCasts_S256x128_S256x128) := by
  refine ⟨fun r j c => ?_⟩
  rw [shapeCast_self, broadcast_apply]
  constructor
  · intro _ k hk; exact absurd hk (Nat.not_lt_zero _)
  · intro _; exact (le_of_eq negInf).trans bot_le

/-- One slice more: from the maximum below `o` to the maximum below `o + 3`. -/
theorem MaxBelow3.step (x : Vec Ideal S256x3 .f32) (w : Vec Ideal S128x3 .f32) (o : Nat)
    (inbx : ∀ a, (![0, o] : Fin 2 → Nat) a + S256x3.size a ≤ S256x3.size a)
    (inbw : ∀ a, (![0, o] : Fin 2 → Nat) a + S128x3.size a ≤ S128x3.size a)
    (acc : Vec Ideal S256x128 .f32) (h : MaxBelow3 x w o acc) :
    MaxBelow3 x w (o + 3)
      (step3 (View.ld x (Rect.unit (s := S256x3) ![0, o] S256x3.size inbx))
        (View.ld w (Rect.unit (s := S128x3) ![0, o] S128x3.size inbw)) acc) := by
  have ho : o + 3 ≤ 3 := inbx 1
  refine ⟨fun r j c => ?_⟩
  rw [step3_apply, max_le_iff, h.le_iff r j c, Finset.fold_max_le]
  constructor
  · rintro ⟨h1, -, h2⟩ k hk
    by_cases hlt : k.val < o
    · exact h1 k hlt
    · have hl : k.val - o < 3 := by omega
      have := h2 ⟨k.val - o, hl⟩ (Finset.mem_univ _)
      rwa [ldw3 w o inbw j ⟨k.val - o, hl⟩ k (by show k.val = o + (k.val - o); omega),
        ldx3 x o inbx r ⟨k.val - o, hl⟩ k (by show k.val = o + (k.val - o); omega)] at this
  · intro h'
    refine ⟨fun k hk => h' k (by omega), bot_le, fun l _ => ?_⟩
    have hk : o + l.val < 3 := by have := l.isLt; omega
    rw [ldw3 w o inbw j l ⟨o + l.val, hk⟩ rfl, ldx3 x o inbx r l ⟨o + l.val, hk⟩ rfl]
    exact h' ⟨o + l.val, hk⟩ (by show o + l.val < o + 3; have := l.isLt; omega)

/-- After the last slice the accumulator is the maximum over the whole contraction axis. -/
theorem MaxBelow3.all (x : Vec Ideal S256x3 .f32) (w : Vec Ideal S128x3 .f32) (acc : Vec Ideal S256x128 .f32)
    (h : MaxBelow3 x w 3 acc) (r : Fin 256) (j : Fin 128) :
    acc (ix2 r j) = (Finset.univ : Finset (Fin 3)).fold max (⊥ : EReal) (fun k => w (ix2 j k) * x (ix2 r k)) := by
  refine eq_of_forall_ge_iff fun c => ?_
  rw [h.le_iff r j c, Finset.fold_max_le]
  exact ⟨fun h' => ⟨bot_le, fun k _ => h' k k.isLt⟩, fun h' k _ => h'.2 k (Finset.mem_univ k)⟩

end Cert.KernelIdeal.Trop

end
-- ==== Proof.Point0.lean ====
import proofs.«166816_j60120952209906_2_alg».proof.Proof.Gen.KernelIdeal.Frame
import proofs.«166816_j60120952209906_2_alg».proof.Proof.RunMax
import Idealize.ShloMosaic.Lib.Pipeline.Value
import Idealize.ShloMosaic.Lib.Tactic

noncomputable section

open Idealize.ShloMosaic Idealize.ShloMosaic.TcCoe Idealize.ShloMosaic.ValueIdx
open Idealize.SL.Sem

namespace Cert.KernelIdeal.Trop

open Cert.KernelIdeal Cert.KernelIdeal.Gen

theorem hz2 : (![0, 0] : Fin 2 → Nat) = fun _ => 0 := funext fun a => by fin_cases a <;> rfl

/-- The bias row repeated down the 256 rows, read at `(r, j)`. -/
theorem bias_apply (b : Vec Ideal S1x128 .f32) (r : Fin 256) (j : Fin 128) :
    broadcastTo S256x128 (shapeCast S1x128 b shapeCasts_S1x128_S1x128) broadcasts_S1x128_S256x128 (ix2 r j)
      = b (ix2 0 j) := by
  rw [shapeCast_self]
  exact broadcastTo_1b_ab_apply b broadcasts_S1x128_S256x128 r j

/-! ## Region 0: what one grid point leaves in its output block -/

/-- The body at one grid point, read off the stores its run found: the scratch accumulator is set to `-∞`, raised
    slice by slice (each read-back of the scratch is the value last stored there), and the output block is the final
    accumulator plus the bias row — so the accumulator is the maximum over all 3 contraction coordinates. -/
theorem point0 (c : Dev nD) (i : grid0.Coords) (a1 : Memref sig .tc .vmem S256x3 .f32) (h1 : a1.IsWhole)
    (a2 : Memref sig .tc .vmem S128x3 .f32) (h2 : a2.IsWhole) (a3 : Memref sig .tc .vmem S1x128 .f32) (h3 : a3.IsWhole)
    (a4 : Memref sig .tc .vmem S256x128 .f32) (h4 : a4.IsWhole) (a5 : Memref sig .tc .vmem S256x128 .f32) (h5 : a5.IsWhole)
    (x0 : Vec Ideal S256x3 .f32) (x1 : Vec Ideal S128x3 .f32) (x2 : Vec Ideal S1x128 .f32) :
    ∃ acc : Vec Ideal S256x128 .f32, MaxBelow3 x0 x1 3 acc ∧
      out0_A_3 (F := Ideal) c i a1 h1 a2 h2 a3 h3 a4 h4 a5 h5 x0 x1 x2
        = addf (F := Ideal) (φ := .f32) acc (broadcastTo S256x128 (shapeCast S1x128 x2 shapeCasts_S1x128_S1x128) broadcasts_S1x128_S256x128) := by
  refine ⟨?w, ?hm, ?he⟩
  case he =>
    unfold out0_A_3
    rw [View.read_writes_eq_canon _ _ _ (cover0_A_3 c i a1 h1 a2 h2 a3 h3 a4 h4 a5 h5 x0 x1 x2)]
    unfold kernelRun0_A
    dsimp only
    sl_unfold_words
    rw [View.canon_unit_zero hz2]
    simp only [↓View.readCov_cons_toLoadRect, View.readAt_eq_ld, h1.read_unread, h2.read_unread, h3.read_unread,
      View.ld_unit_zero (S := S1x128) hz2]
    rfl
  case hm =>
    iterate 1 refine MaxBelow3.step x0 x1 _ _ _ _ ?_
    exact MaxBelow3.base x0 x1

/-- The output block at `(r, j)`: the largest product `w[j, k] * x[r, k]` over the contraction axis, plus `b[j]`. -/
theorem point0_apply (c : Dev nD) (i : grid0.Coords) (a1 : Memref sig .tc .vmem S256x3 .f32) (h1 : a1.IsWhole)
    (a2 : Memref sig .tc .vmem S128x3 .f32) (h2 : a2.IsWhole) (a3 : Memref sig .tc .vmem S1x128 .f32) (h3 : a3.IsWhole)
    (a4 : Memref sig .tc .vmem S256x128 .f32) (h4 : a4.IsWhole) (a5 : Memref sig .tc .vmem S256x128 .f32) (h5 : a5.IsWhole)
    (x0 : Vec Ideal S256x3 .f32) (x1 : Vec Ideal S128x3 .f32) (x2 : Vec Ideal S1x128 .f32) (r : Fin 256) (j : Fin 128) :
    out0_A_3 (F := Ideal) c i a1 h1 a2 h2 a3 h3 a4 h4 a5 h5 x0 x1 x2 (ix2 r j)
      = (Finset.univ : Finset (Fin 3)).fold max (⊥ : EReal) (fun k => x1 (ix2 j k) * x0 (ix2 r k)) + x2 (ix2 0 j) := by
  obtain ⟨acc, hacc, he⟩ := point0 c i a1 h1 a2 h2 a3 h3 a4 h4 a5 h5 x0 x1 x2
  rw [he, addf_apply, bias_apply, MaxBelow3.all x0 x1 acc hacc r j]

end Cert.KernelIdeal.Trop

end
-- ==== Proof.Region0.lean ====
import proofs.«166816_j60120952209906_2_alg».proof.Proof.Layer
import proofs.«166816_j60120952209906_2_alg».proof.Proof.Point0
import Idealize.ShloMosaic.Lib.Pipeline.Value
import Idealize.ShloMosaic.Lib.Tactic

noncomputable section

open Idealize.ShloMosaic Idealize.ShloMosaic.TcCoe Idealize.ShloMosaic.ValueIdx
open Idealize.SL.Sem
open Idealize.ShloMosaic.Pipeline (Dat)

namespace Cert.KernelIdeal.Trop

open Cert.KernelIdeal Cert.KernelIdeal.Gen

/-! ## Region 0: from the blocks the grid points write back to the whole output array -/

section Region0

variable (V : (c : Dev nD) → (b : Ref sig .tc) → Buf (Elt Ideal) ((c : Thread nD τ).loc b))

/-- Where each window's block sits at grid point `t`: the activations whole, the weights at row block `t`, the bias
    and the output at column block `t`. -/
theorem blockIndex0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What grid point `t` writes back is block `t` of the layer of the three input arrays as the region finds them:
    output columns `128 t … 128 t + 127` use weight rows and bias entries `128 t + j` and all of the activations. -/
theorem flushed0_eq (c : Dev nD) (t : Fin cfg0.N) :
    (dat0 V c).flushed 3 t = ((cfg0.win 3).blk t).view.read (Elt Ideal)
      (layer3 (V c main_arg0) (V c main_arg1) (V c main_v0)) := by
  have hN : cfg0.N = 8 := N_0
  have ht : t.val < 8 := by have := t.isLt; omega
  obtain ⟨e00, e01, e10, e11, e20, e21, e30, e31⟩ := blockIndex0 t
  show (cfg0.win 3).cut (grid0.coords t) ((dat0 V c).after 3 t) = _
  rw [after0_3]
  unfold outsAt0
  funext y
  obtain ⟨r, j, rfl⟩ : ∃ (r : Fin 256) (j : Fin 128), y = ix2 r j := ⟨y 0, y 1, eq_ix2 y⟩
  have hq : 128 * t.val + j.val < 1024 := by have := j.isLt; omega
  show out0_A_3 (F := Ideal) c (grid0.coords t) (ms0_0 t) (hs0_0 t) (ms0_1 t) (hs0_1 t) (ms0_2 t) (hs0_2 t)
      (ms0_3 t) (hs0_3 t) scM0_0 (Memref.isWhole_whole _) (iblk0 V c 0 t) (iblk0 V c 1 t) (iblk0 V c 2 t) (ix2 r j)
    = layer3 (V c main_arg0) (V c main_arg1) (V c main_v0) (((cfg0.win 3).blk t).view.emb (ix2 r j))
  refine (point0_apply c (grid0.coords t) (ms0_0 t) (hs0_0 t) (ms0_1 t) (hs0_1 t) (ms0_2 t) (hs0_2 t)
      (ms0_3 t) (hs0_3 t) scM0_0 (Memref.isWhole_whole _) (iblk0 V c 0 t) (iblk0 V c 1 t) (iblk0 V c 2 t) r j).trans ?_
  have hemb : ((cfg0.win 3).blk t).view.emb (ix2 r j) = ix2 r (⟨128 * t.val + j.val, hq⟩ : Fin 1024) := by
    funext a; apply Fin.ext
    match a with
    | ⟨0, _⟩ => show win0_3.index t (0 : Fin 2) * 256 + 1 * r.val = r.val; omega
    | ⟨1, _⟩ => show win0_3.index t (1 : Fin 2) * 128 + 1 * j.val = 128 * t.val + j.val; omega
  refine Eq.trans ?_ (congrArg (layer3 (V c main_arg0) (V c main_arg1) (V c main_v0)) hemb).symm
  show _ = layerAt3 (V c main_arg0) (V c main_arg1) (V c main_v0) r ⟨128 * t.val + j.val, hq⟩
  unfold layerAt3
  refine congrArg₂ (· + ·) (congrArg (fun f => (Finset.univ : Finset (Fin 3)).fold max (⊥ : EReal) f)
    (funext fun k => congrArg₂ (· * ·) ?_ ?_)) ?_
  · show V c main_arg1 (((cfg0.win 1).blk t).view.emb (ix2 j k)) = V c main_arg1 (ix2 ⟨128 * t.val + j.val, hq⟩ k)
    refine congrArg (V c main_arg1) (funext fun a => Fin.ext ?_)
    match a with
    | ⟨0, _⟩ => show win0_1.index t (0 : Fin 2) * 128 + 1 * j.val = 128 * t.val + j.val; omega
    | ⟨1, _⟩ => show win0_1.index t (1 : Fin 2) * 3 + 1 * k.val = k.val; omega
  · show V c main_arg0 (((cfg0.win 0).blk t).view.emb (ix2 r k)) = V c main_arg0 (ix2 r k)
    refine congrArg (V c main_arg0) (funext fun a => Fin.ext ?_)
    match a with
    | ⟨0, _⟩ => show win0_0.index t (0 : Fin 2) * 256 + 1 * r.val = r.val; omega
    | ⟨1, _⟩ => show win0_0.index t (1 : Fin 2) * 3 + 1 * k.val = k.val; omega
  · show V c main_v0 (((cfg0.win 2).blk t).view.emb (ix2 (0 : Fin 1) j)) = V c main_v0 (ix2 (0 : Fin 1) ⟨128 * t.val + j.val, hq⟩)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * j.val = 128 * t.val + j.val; omega

/-- An index of the output array lies in point `t`'s block exactly when each coordinate lies in the block's range. -/
theorem memBlock0 (t : Fin cfg0.N) (i : S256x1024.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v1).slice (win0_3.rect t)).set ↔ _
  rw [View.set_slice_whole, Rect.mem_set_unit]
  exact Iff.rfl

/-- The eight column blocks tile the output array (column `q` lies in block `q / 128`), so after the region the
    array is the layer of the three input arrays. -/
theorem array0 (c : Dev nD) :
    (dat0 V c).arrAt 3 cfg0.N = layer3 (V c main_arg0) (V c main_arg1) (V c main_v0) :=
  (dat0 V c).arrAt_eq_of_cover 3 (layer3 (V c main_arg0) (V c main_arg1) (V c main_v0)) (fun t _ => flushed0_eq V c t) fun i => by
    have hN : cfg0.N = 8 := N_0
    have hi0 : (i 0).val < 256 := (i 0).isLt
    have hi1 : (i 1).val < 1024 := (i 1).isLt
    have ht : (i 1).val / 128 < cfg0.N := by rw [hN]; omega
    obtain ⟨e00, e01, e10, e11, e20, e21, e30, e31⟩ := blockIndex0 ⟨(i 1).val / 128, ht⟩
    refine ⟨⟨(i 1).val / 128, ht⟩, flush0_3 _, ?_⟩
    rw [memBlock0]
    intro a
    match a with
    | ⟨0, _⟩ =>
      show win0_3.index ⟨(i 1).val / 128, ht⟩ (0 : Fin 2) * 256 ≤ (i 0).val
        ∧ (i 0).val < win0_3.index ⟨(i 1).val / 128, ht⟩ (0 : Fin 2) * 256 + 256
      omega
    | ⟨1, _⟩ =>
      show win0_3.index ⟨(i 1).val / 128, ht⟩ (1 : Fin 2) * 128 ≤ (i 1).val
        ∧ (i 1).val < win0_3.index ⟨(i 1).val / 128, ht⟩ (1 : Fin 2) * 128 + 128
      have e : win0_3.index ⟨(i 1).val / 128, ht⟩ (1 : Fin 2) = (i 1).val / 128 := e31
      omega

end Region0

end Cert.KernelIdeal.Trop

end
-- ==== Proof.Point1.lean ====
import proofs.«166816_j60120952209906_2_alg».proof.Proof.Gen.KernelIdeal.Frame
import proofs.«166816_j60120952209906_2_alg».proof.Proof.Point0
import Idealize.ShloMosaic.Lib.Pipeline.Value
import Idealize.ShloMosaic.Lib.Tactic

noncomputable section

open Idealize.ShloMosaic Idealize.ShloMosaic.TcCoe Idealize.ShloMosaic.ValueIdx
open Idealize.SL.Sem

namespace Cert.KernelIdeal.Trop

open Cert.KernelIdeal Cert.KernelIdeal.Gen

/-! ## Region 1: what one grid point leaves in its output block -/

/-- The body at one grid point, read off the stores its run found: the scratch accumulator is set to `-∞`, raised
    slice by slice (each read-back of the scratch is the value last stored there), and the output block is the final
    accumulator plus the bias row — so the accumulator is the maximum over all 1024 contraction coordinates. -/
theorem point1 (c : Dev nD) (i : grid1.Coords) (a1 : Memref sig .tc .vmem S256x1024 .f32) (h1 : a1.IsWhole)
    (a2 : Memref sig .tc .vmem S128x1024 .f32) (h2 : a2.IsWhole) (a3 : Memref sig .tc .vmem S1x128 .f32) (h3 : a3.IsWhole)
    (a4 : Memref sig .tc .vmem S256x128 .f32) (h4 : a4.IsWhole) (a5 : Memref sig .tc .vmem S256x128 .f32) (h5 : a5.IsWhole)
    (x0 : Vec Ideal S256x1024 .f32) (x1 : Vec Ideal S128x1024 .f32) (x2 : Vec Ideal S1x128 .f32) :
    ∃ acc : Vec Ideal S256x128 .f32, MaxBelow1024 x0 x1 1024 acc ∧
      out1_A_3 (F := Ideal) c i a1 h1 a2 h2 a3 h3 a4 h4 a5 h5 x0 x1 x2
        = addf (F := Ideal) (φ := .f32) acc (broadcastTo S256x128 (shapeCast S1x128 x2 shapeCasts_S1x128_S1x128) broadcasts_S1x128_S256x128) := by
  refine ⟨?w, ?hm, ?he⟩
  case he =>
    unfold out1_A_3
    rw [View.read_writes_eq_canon _ _ _ (cover1_A_3 c i a1 h1 a2 h2 a3 h3 a4 h4 a5 h5 x0 x1 x2)]
    unfold kernelRun1_A
    dsimp only
    sl_unfold_words
    rw [View.canon_unit_zero hz2]
    simp only [↓View.readCov_cons_toLoadRect, View.readAt_eq_ld, h1.read_unread, h2.read_unread, h3.read_unread,
      View.ld_unit_zero (S := S1x128) hz2,
      k1_pay17, k1_pay18, k1_pay34, k1_pay35, k1_pay51, k1_pay52, k1_pay68, k1_pay69, k1_pay85, k1_pay86]
    rfl
  case hm =>
    iterate 64 refine MaxBelow1024.step x0 x1 _ _ _ _ ?_
    exact MaxBelow1024.base x0 x1

/-- The output block at `(r, j)`: the largest product `w[j, k] * x[r, k]` over the contraction axis, plus `b[j]`. -/
theorem point1_apply (c : Dev nD) (i : grid1.Coords) (a1 : Memref sig .tc .vmem S256x1024 .f32) (h1 : a1.IsWhole)
    (a2 : Memref sig .tc .vmem S128x1024 .f32) (h2 : a2.IsWhole) (a3 : Memref sig .tc .vmem S1x128 .f32) (h3 : a3.IsWhole)
    (a4 : Memref sig .tc .vmem S256x128 .f32) (h4 : a4.IsWhole) (a5 : Memref sig .tc .vmem S256x128 .f32) (h5 : a5.IsWhole)
    (x0 : Vec Ideal S256x1024 .f32) (x1 : Vec Ideal S128x1024 .f32) (x2 : Vec Ideal S1x128 .f32) (r : Fin 256) (j : Fin 128) :
    out1_A_3 (F := Ideal) c i a1 h1 a2 h2 a3 h3 a4 h4 a5 h5 x0 x1 x2 (ix2 r j)
      = (Finset.univ : Finset (Fin 1024)).fold max (⊥ : EReal) (fun k => x1 (ix2 j k) * x0 (ix2 r k)) + x2 (ix2 0 j) := by
  obtain ⟨acc, hacc, he⟩ := point1 c i a1 h1 a2 h2 a3 h3 a4 h4 a5 h5 x0 x1 x2
  rw [he, addf_apply, bias_apply, MaxBelow1024.all x0 x1 acc hacc r j]

end Cert.KernelIdeal.Trop

end
-- ==== Proof.Region1.lean ====
import proofs.«166816_j60120952209906_2_alg».proof.Proof.Layer
import proofs.«166816_j60120952209906_2_alg».proof.Proof.Point1
import Idealize.ShloMosaic.Lib.Pipeline.Value
import Idealize.ShloMosaic.Lib.Tactic

noncomputable section

open Idealize.ShloMosaic Idealize.ShloMosaic.TcCoe Idealize.ShloMosaic.ValueIdx
open Idealize.SL.Sem
open Idealize.ShloMosaic.Pipeline (Dat)

namespace Cert.KernelIdeal.Trop

open Cert.KernelIdeal Cert.KernelIdeal.Gen

/-! ## Region 1: from the blocks the grid points write back to the whole output array -/

section Region1

variable (V : (c : Dev nD) → (b : Ref sig .tc) → Buf (Elt Ideal) ((c : Thread nD τ).loc b))

/-- Where each window's block sits at grid point `t`: the activations whole, the weights at row block `t`, the bias
    and the output at column block `t`. -/
theorem blockIndex1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- What grid point `t` writes back is block `t` of the layer of the three input arrays as the region finds them:
    output columns `128 t … 128 t + 127` use weight rows and bias entries `128 t + j` and all of the activations. -/
theorem flushed1_eq (c : Dev nD) (t : Fin cfg1.N) :
    (dat1 V c).flushed 3 t = ((cfg1.win 3).blk t).view.read (Elt Ideal)
      (layer1024 (V c main_v1) (V c main_v3) (V c main_v6)) := by
  have hN : cfg1.N = 8 := N_1
  have ht : t.val < 8 := by have := t.isLt; omega
  obtain ⟨e00, e01, e10, e11, e20, e21, e30, e31⟩ := blockIndex1 t
  show (cfg1.win 3).cut (grid1.coords t) ((dat1 V c).after 3 t) = _
  rw [after1_3]
  unfold outsAt1
  funext y
  obtain ⟨r, j, rfl⟩ : ∃ (r : Fin 256) (j : Fin 128), y = ix2 r j := ⟨y 0, y 1, eq_ix2 y⟩
  have hq : 128 * t.val + j.val < 1024 := by have := j.isLt; omega
  show out1_A_3 (F := Ideal) c (grid1.coords t) (ms1_0 t) (hs1_0 t) (ms1_1 t) (hs1_1 t) (ms1_2 t) (hs1_2 t)
      (ms1_3 t) (hs1_3 t) scM1_0 (Memref.isWhole_whole _) (iblk1 V c 0 t) (iblk1 V c 1 t) (iblk1 V c 2 t) (ix2 r j)
    = layer1024 (V c main_v1) (V c main_v3) (V c main_v6) (((cfg1.win 3).blk t).view.emb (ix2 r j))
  refine (point1_apply c (grid1.coords t) (ms1_0 t) (hs1_0 t) (ms1_1 t) (hs1_1 t) (ms1_2 t) (hs1_2 t)
      (ms1_3 t) (hs1_3 t) scM1_0 (Memref.isWhole_whole _) (iblk1 V c 0 t) (iblk1 V c 1 t) (iblk1 V c 2 t) r j).trans ?_
  have hemb : ((cfg1.win 3).blk t).view.emb (ix2 r j) = ix2 r (⟨128 * t.val + j.val, hq⟩ : Fin 1024) := by
    funext a; apply Fin.ext
    match a with
    | ⟨0, _⟩ => show win1_3.index t (0 : Fin 2) * 256 + 1 * r.val = r.val; omega
    | ⟨1, _⟩ => show win1_3.index t (1 : Fin 2) * 128 + 1 * j.val = 128 * t.val + j.val; omega
  refine Eq.trans ?_ (congrArg (layer1024 (V c main_v1) (V c main_v3) (V c main_v6)) hemb).symm
  show _ = layerAt1024 (V c main_v1) (V c main_v3) (V c main_v6) r ⟨128 * t.val + j.val, hq⟩
  unfold layerAt1024
  refine congrArg₂ (· + ·) (congrArg (fun f => (Finset.univ : Finset (Fin 1024)).fold max (⊥ : EReal) f)
    (funext fun k => congrArg₂ (· * ·) ?_ ?_)) ?_
  · show V c main_v3 (((cfg1.win 1).blk t).view.emb (ix2 j k)) = V c main_v3 (ix2 ⟨128 * t.val + j.val, hq⟩ k)
    refine congrArg (V c main_v3) (funext fun a => Fin.ext ?_)
    match a with
    | ⟨0, _⟩ => show win1_1.index t (0 : Fin 2) * 128 + 1 * j.val = 128 * t.val + j.val; omega
    | ⟨1, _⟩ => show win1_1.index t (1 : Fin 2) * 1024 + 1 * k.val = k.val; omega
  · show V c main_v1 (((cfg1.win 0).blk t).view.emb (ix2 r k)) = V c main_v1 (ix2 r k)
    refine congrArg (V c main_v1) (funext fun a => Fin.ext ?_)
    match a with
    | ⟨0, _⟩ => show win1_0.index t (0 : Fin 2) * 256 + 1 * r.val = r.val; omega
    | ⟨1, _⟩ => show win1_0.index t (1 : Fin 2) * 1024 + 1 * k.val = k.val; omega
  · show V c main_v6 (((cfg1.win 2).blk t).view.emb (ix2 (0 : Fin 1) j)) = V c main_v6 (ix2 (0 : Fin 1) ⟨128 * t.val + j.val, hq⟩)
    refine congrArg (V c main_v6) (funext fun a => Fin.ext ?_)
    match a with
    | ⟨0, _⟩ => show win1_2.index t (0 : Fin 2) * 1 + 1 * 0 = 0; omega
    | ⟨1, _⟩ => show win1_2.index t (1 : Fin 2) * 128 + 1 * j.val = 128 * t.val + j.val; omega

/-- An index of the output array lies in point `t`'s block exactly when each coordinate lies in the block's range. -/
theorem memBlock1 (t : Fin cfg1.N) (i : S256x1024.Idx) :
    i ∈ ((cfg1.win 3).blk t).view.set ↔ ∀ a : Fin 2, win1_3.index t a * S256x128.size a ≤ (i a).val
      ∧ (i a).val < win1_3.index t a * S256x128.size a + S256x128.size a := by
  show i ∈ ((View.whole main_v7).slice (win1_3.rect t)).set ↔ _
  rw [View.set_slice_whole, Rect.mem_set_unit]
  exact Iff.rfl

/-- The eight column blocks tile the output array (column `q` lies in block `q / 128`), so after the region the
    array is the layer of the three input arrays. -/
theorem array1 (c : Dev nD) :
    (dat1 V c).arrAt 3 cfg1.N = layer1024 (V c main_v1) (V c main_v3) (V c main_v6) :=
  (dat1 V c).arrAt_eq_of_cover 3 (layer1024 (V c main_v1) (V c main_v3) (V c main_v6)) (fun t _ => flushed1_eq V c t) fun i => by
    have hN : cfg1.N = 8 := N_1
    have hi0 : (i 0).val < 256 := (i 0).isLt
    have hi1 : (i 1).val < 1024 := (i 1).isLt
    have ht : (i 1).val / 128 < cfg1.N := by rw [hN]; omega
    obtain ⟨e00, e01, e10, e11, e20, e21, e30, e31⟩ := blockIndex1 ⟨(i 1).val / 128, ht⟩
    refine ⟨⟨(i 1).val / 128, ht⟩, flush1_3 _, ?_⟩
    rw [memBlock1]
    intro a
    match a with
    | ⟨0, _⟩ =>
      show win1_3.index ⟨(i 1).val / 128, ht⟩ (0 : Fin 2) * 256 ≤ (i 0).val
        ∧ (i 0).val < win1_3.index ⟨(i 1).val / 128, ht⟩ (0 : Fin 2) * 256 + 256
      omega
    | ⟨1, _⟩ =>
      show win1_3.index ⟨(i 1).val / 128, ht⟩ (1 : Fin 2) * 128 ≤ (i 1).val
        ∧ (i 1).val < win1_3.index ⟨(i 1).val / 128, ht⟩ (1 : Fin 2) * 128 + 128
      have e : win1_3.index ⟨(i 1).val / 128, ht⟩ (1 : Fin 2) = (i 1).val / 128 := e31
      omega

end Region1

end Cert.KernelIdeal.Trop

end
-- ==== Proof.Point2.lean ====
import proofs.«166816_j60120952209906_2_alg».proof.Proof.Gen.KernelIdeal.Frame
import proofs.«166816_j60120952209906_2_alg».proof.Proof.Point0
import Idealize.ShloMosaic.Lib.Pipeline.Value
import Idealize.ShloMosaic.Lib.Tactic

noncomputable section

open Idealize.ShloMosaic Idealize.ShloMosaic.TcCoe Idealize.ShloMosaic.ValueIdx
open Idealize.SL.Sem

namespace Cert.KernelIdeal.Trop

open Cert.KernelIdeal Cert.KernelIdeal.Gen

/-! ## Region 2: what one grid point leaves in its output block -/

/-- The body at one grid point, read off the stores its run found: the scratch accumulator is set to `-∞`, raised
    slice by slice (each read-back of the scratch is the value last stored there), and the output block is the final
    accumulator plus the bias row — so the accumulator is the maximum over all 1024 contraction coordinates. -/
theorem point2 (c : Dev nD) (i : grid2.Coords) (a1 : Memref sig .tc .vmem S256x1024 .f32) (h1 : a1.IsWhole)
    (a2 : Memref sig .tc .vmem S128x1024 .f32) (h2 : a2.IsWhole) (a3 : Memref sig .tc .vmem S1x128 .f32) (h3 : a3.IsWhole)
    (a4 : Memref sig .tc .vmem S256x128 .f32) (h4 : a4.IsWhole) (a5 : Memref sig .tc .vmem S256x128 .f32) (h5 : a5.IsWhole)
    (x0 : Vec Ideal S256x1024 .f32) (x1 : Vec Ideal S128x1024 .f32) (x2 : Vec Ideal S1x128 .f32) :
    ∃ acc : Vec Ideal S256x128 .f32, MaxBelow1024 x0 x1 1024 acc ∧
      out2_A_3 (F := Ideal) c i a1 h1 a2 h2 a3 h3 a4 h4 a5 h5 x0 x1 x2
        = addf (F := Ideal) (φ := .f32) acc (broadcastTo S256x128 (shapeCast S1x128 x2 shapeCasts_S1x128_S1x128) broadcasts_S1x128_S256x128) := by
  refine ⟨?w, ?hm, ?he⟩
  case he =>
    unfold out2_A_3
    rw [View.read_writes_eq_canon _ _ _ (cover2_A_3 c i a1 h1 a2 h2 a3 h3 a4 h4 a5 h5 x0 x1 x2)]
    unfold kernelRun2_A
    dsimp only
    sl_unfold_words
    rw [View.canon_unit_zero hz2]
    simp only [↓View.readCov_cons_toLoadRect, View.readAt_eq_ld, h1.read_unread, h2.read_unread, h3.read_unread,
      View.ld_unit_zero (S := S1x128) hz2,
      k2_pay17, k2_pay18, k2_pay34, k2_pay35, k2_pay51, k2_pay52, k2_pay68, k2_pay69, k2_pay85, k2_pay86]
    rfl
  case hm =>
    iterate 64 refine MaxBelow1024.step x0 x1 _ _ _ _ ?_
    exact MaxBelow1024.base x0 x1

/-- The output block at `(r, j)`: the largest product `w[j, k] * x[r, k]` over the contraction axis, plus `b[j]`. -/
theorem point2_apply (c : Dev nD) (i : grid2.Coords) (a1 : Memref sig .tc .vmem S256x1024 .f32) (h1 : a1.IsWhole)
    (a2 : Memref sig .tc .vmem S128x1024 .f32) (h2 : a2.IsWhole) (a3 : Memref sig .tc .vmem S1x128 .f32) (h3 : a3.IsWhole)
    (a4 : Memref sig .tc .vmem S256x128 .f32) (h4 : a4.IsWhole) (a5 : Memref sig .tc .vmem S256x128 .f32) (h5 : a5.IsWhole)
    (x0 : Vec Ideal S256x1024 .f32) (x1 : Vec Ideal S128x1024 .f32) (x2 : Vec Ideal S1x128 .f32) (r : Fin 256) (j : Fin 128) :
    out2_A_3 (F := Ideal) c i a1 h1 a2 h2 a3 h3 a4 h4 a5 h5 x0 x1 x2 (ix2 r j)
      = (Finset.univ : Finset (Fin 1024)).fold max (⊥ : EReal) (fun k => x1 (ix2 j k) * x0 (ix2 r k)) + x2 (ix2 0 j) := by
  obtain ⟨acc, hacc, he⟩ := point2 c i a1 h1 a2 h2 a3 h3 a4 h4 a5 h5 x0 x1 x2
  rw [he, addf_apply, bias_apply, MaxBelow1024.all x0 x1 acc hacc r j]

end Cert.KernelIdeal.Trop

end
-- ==== Proof.Region2.lean ====
import proofs.«166816_j60120952209906_2_alg».proof.Proof.Layer
import proofs.«166816_j60120952209906_2_alg».proof.Proof.Point2
import Idealize.ShloMosaic.Lib.Pipeline.Value
import Idealize.ShloMosaic.Lib.Tactic

noncomputable section

open Idealize.ShloMosaic Idealize.ShloMosaic.TcCoe Idealize.ShloMosaic.ValueIdx
open Idealize.SL.Sem
open Idealize.ShloMosaic.Pipeline (Dat)

namespace Cert.KernelIdeal.Trop

open Cert.KernelIdeal Cert.KernelIdeal.Gen

/-! ## Region 2: from the blocks the grid points write back to the whole output array -/

section Region2

variable (V : (c : Dev nD) → (b : Ref sig .tc) → Buf (Elt Ideal) ((c : Thread nD τ).loc b))

/-- Where each window's block sits at grid point `t`: the activations whole, the weights at row block `t`, the bias
    and the output at column block `t`. -/
theorem blockIndex2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- What grid point `t` writes back is block `t` of the layer of the three input arrays as the region finds them:
    output columns `128 t … 128 t + 127` use weight rows and bias entries `128 t + j` and all of the activations. -/
theorem flushed2_eq (c : Dev nD) (t : Fin cfg2.N) :
    (dat2 V c).flushed 3 t = ((cfg2.win 3).blk t).view.read (Elt Ideal)
      (layer1024 (V c main_v7) (V c main_v9) (V c main_v12)) := by
  have hN : cfg2.N = 8 := N_2
  have ht : t.val < 8 := by have := t.isLt; omega
  obtain ⟨e00, e01, e10, e11, e20, e21, e30, e31⟩ := blockIndex2 t
  show (cfg2.win 3).cut (grid2.coords t) ((dat2 V c).after 3 t) = _
  rw [after2_3]
  unfold outsAt2
  funext y
  obtain ⟨r, j, rfl⟩ : ∃ (r : Fin 256) (j : Fin 128), y = ix2 r j := ⟨y 0, y 1, eq_ix2 y⟩
  have hq : 128 * t.val + j.val < 1024 := by have := j.isLt; omega
  show out2_A_3 (F := Ideal) c (grid2.coords t) (ms2_0 t) (hs2_0 t) (ms2_1 t) (hs2_1 t) (ms2_2 t) (hs2_2 t)
      (ms2_3 t) (hs2_3 t) scM2_0 (Memref.isWhole_whole _) (iblk2 V c 0 t) (iblk2 V c 1 t) (iblk2 V c 2 t) (ix2 r j)
    = layer1024 (V c main_v7) (V c main_v9) (V c main_v12) (((cfg2.win 3).blk t).view.emb (ix2 r j))
  refine (point2_apply c (grid2.coords t) (ms2_0 t) (hs2_0 t) (ms2_1 t) (hs2_1 t) (ms2_2 t) (hs2_2 t)
      (ms2_3 t) (hs2_3 t) scM2_0 (Memref.isWhole_whole _) (iblk2 V c 0 t) (iblk2 V c 1 t) (iblk2 V c 2 t) r j).trans ?_
  have hemb : ((cfg2.win 3).blk t).view.emb (ix2 r j) = ix2 r (⟨128 * t.val + j.val, hq⟩ : Fin 1024) := by
    funext a; apply Fin.ext
    match a with
    | ⟨0, _⟩ => show win2_3.index t (0 : Fin 2) * 256 + 1 * r.val = r.val; omega
    | ⟨1, _⟩ => show win2_3.index t (1 : Fin 2) * 128 + 1 * j.val = 128 * t.val + j.val; omega
  refine Eq.trans ?_ (congrArg (layer1024 (V c main_v7) (V c main_v9) (V c main_v12)) hemb).symm
  show _ = layerAt1024 (V c main_v7) (V c main_v9) (V c main_v12) r ⟨128 * t.val + j.val, hq⟩
  unfold layerAt1024
  refine congrArg₂ (· + ·) (congrArg (fun f => (Finset.univ : Finset (Fin 1024)).fold max (⊥ : EReal) f)
    (funext fun k => congrArg₂ (· * ·) ?_ ?_)) ?_
  · show V c main_v9 (((cfg2.win 1).blk t).view.emb (ix2 j k)) = V c main_v9 (ix2 ⟨128 * t.val + j.val, hq⟩ k)
    refine congrArg (V c main_v9) (funext fun a => Fin.ext ?_)
    match a with
    | ⟨0, _⟩ => show win2_1.index t (0 : Fin 2) * 128 + 1 * j.val = 128 * t.val + j.val; omega
    | ⟨1, _⟩ => show win2_1.index t (1 : Fin 2) * 1024 + 1 * k.val = k.val; omega
  · show V c main_v7 (((cfg2.win 0).blk t).view.emb (ix2 r k)) = V c main_v7 (ix2 r k)
    refine congrArg (V c main_v7) (funext fun a => Fin.ext ?_)
    match a with
    | ⟨0, _⟩ => show win2_0.index t (0 : Fin 2) * 256 + 1 * r.val = r.val; omega
    | ⟨1, _⟩ => show win2_0.index t (1 : Fin 2) * 1024 + 1 * k.val = k.val; omega
  · show V c main_v12 (((cfg2.win 2).blk t).view.emb (ix2 (0 : Fin 1) j)) = V c main_v12 (ix2 (0 : Fin 1) ⟨128 * t.val + j.val, hq⟩)
    refine congrArg (V c main_v12) (funext fun a => Fin.ext ?_)
    match a with
    | ⟨0, _⟩ => show win2_2.index t (0 : Fin 2) * 1 + 1 * 0 = 0; omega
    | ⟨1, _⟩ => show win2_2.index t (1 : Fin 2) * 128 + 1 * j.val = 128 * t.val + j.val; omega

/-- An index of the output array lies in point `t`'s block exactly when each coordinate lies in the block's range. -/
theorem memBlock2 (t : Fin cfg2.N) (i : S256x1024.Idx) :
    i ∈ ((cfg2.win 3).blk t).view.set ↔ ∀ a : Fin 2, win2_3.index t a * S256x128.size a ≤ (i a).val
      ∧ (i a).val < win2_3.index t a * S256x128.size a + S256x128.size a := by
  show i ∈ ((View.whole main_v13).slice (win2_3.rect t)).set ↔ _
  rw [View.set_slice_whole, Rect.mem_set_unit]
  exact Iff.rfl

/-- The eight column blocks tile the output array (column `q` lies in block `q / 128`), so after the region the
    array is the layer of the three input arrays. -/
theorem array2 (c : Dev nD) :
    (dat2 V c).arrAt 3 cfg2.N = layer1024 (V c main_v7) (V c main_v9) (V c main_v12) :=
  (dat2 V c).arrAt_eq_of_cover 3 (layer1024 (V c main_v7) (V c main_v9) (V c main_v12)) (fun t _ => flushed2_eq V c t) fun i => by
    have hN : cfg2.N = 8 := N_2
    have hi0 : (i 0).val < 256 := (i 0).isLt
    have hi1 : (i 1).val < 1024 := (i 1).isLt
    have ht : (i 1).val / 128 < cfg2.N := by rw [hN]; omega
    obtain ⟨e00, e01, e10, e11, e20, e21, e30, e31⟩ := blockIndex2 ⟨(i 1).val / 128, ht⟩
    refine ⟨⟨(i 1).val / 128, ht⟩, flush2_3 _, ?_⟩
    rw [memBlock2]
    intro a
    match a with
    | ⟨0, _⟩ =>
      show win2_3.index ⟨(i 1).val / 128, ht⟩ (0 : Fin 2) * 256 ≤ (i 0).val
        ∧ (i 0).val < win2_3.index ⟨(i 1).val / 128, ht⟩ (0 : Fin 2) * 256 + 256
      omega
    | ⟨1, _⟩ =>
      show win2_3.index ⟨(i 1).val / 128, ht⟩ (1 : Fin 2) * 128 ≤ (i 1).val
        ∧ (i 1).val < win2_3.index ⟨(i 1).val / 128, ht⟩ (1 : Fin 2) * 128 + 128
      have e : win2_3.index ⟨(i 1).val / 128, ht⟩ (1 : Fin 2) = (i 1).val / 128 := e31
      omega

end Region2

end Cert.KernelIdeal.Trop

end
-- ==== Proof.KernelValue.lean ====
import proofs.«166816_j60120952209906_2_alg».proof.Proof.Network
import proofs.«166816_j60120952209906_2_alg».proof.Proof.Region0
import proofs.«166816_j60120952209906_2_alg».proof.Proof.Region1
import proofs.«166816_j60120952209906_2_alg».proof.Proof.Region2
import Idealize.ShloMosaic.Lib.StableHlo.Run

noncomputable section

open Idealize.ShloMosaic Idealize.ShloMosaic.TcCoe Idealize.ShloMosaic.ValueIdx
open Idealize.SL.Sem Idealize.ShloMosaic.StableHlo

namespace Cert.KernelIdeal.Trop

open Cert.KernelIdeal Cert.KernelIdeal.Gen

variable (m : (ℓ : Loc nD τ sig) → Buf (Elt Ideal) ℓ) (ρ : Dev nD → PrngReg)

/-! ## The buffer contents at each boundary of the program, in terms of the launch arrays

Host operations before a region only reshape and slice arguments; a region changes only its output array; so each
array a later stage reads is either a launch array, a slice of one, or an earlier region's layer. -/

/-! ### After the first stretch of host operations (region 0's entry) -/

theorem at1_arg0 (c : Dev nD) : W1 m ρ c (Proc.devRef .tc main_arg0) = m ((c : Thread nD τ).loc main_arg0) := by
  show StableHlo.after hostOps0 (W0 m ρ c) (Proc.devRef .tc main_arg0) = _
  after_results
  try rfl

theorem at1_arg1 (c : Dev nD) : W1 m ρ c (Proc.devRef .tc main_arg1) = m ((c : Thread nD τ).loc main_arg1) := by
  show StableHlo.after hostOps0 (W0 m ρ c) (Proc.devRef .tc main_arg1) = _
  after_results
  try rfl

theorem at1_arg2 (c : Dev nD) : W1 m ρ c (Proc.devRef .tc main_arg2) = m ((c : Thread nD τ).loc main_arg2) := by
  show StableHlo.after hostOps0 (W0 m ρ c) (Proc.devRef .tc main_arg2) = _
  after_results
  try rfl

theorem at1_arg3 (c : Dev nD) : W1 m ρ c (Proc.devRef .tc main_arg3) = m ((c : Thread nD τ).loc main_arg3) := by
  show StableHlo.after hostOps0 (W0 m ρ c) (Proc.devRef .tc main_arg3) = _
  after_results
  try rfl

theorem at1_arg4 (c : Dev nD) : W1 m ρ c (Proc.devRef .tc main_arg4) = m ((c : Thread nD τ).loc main_arg4) := by
  show StableHlo.after hostOps0 (W0 m ρ c) (Proc.devRef .tc main_arg4) = _
  after_results
  try rfl

theorem at1_arg5 (c : Dev nD) : W1 m ρ c (Proc.devRef .tc main_arg5) = m ((c : Thread nD τ).loc main_arg5) := by
  show StableHlo.after hostOps0 (W0 m ρ c) (Proc.devRef .tc main_arg5) = _
  after_results
  try rfl

theorem at1_arg6 (c : Dev nD) : W1 m ρ c (Proc.devRef .tc main_arg6) = m ((c : Thread nD τ).loc main_arg6) := by
  show StableHlo.after hostOps0 (W0 m ρ c) (Proc.devRef .tc main_arg6) = _
  after_results
  try rfl

theorem at1_v0 (c : Dev nD) : W1 m ρ c (Proc.devRef .tc main_v0) = bFirst (m ((c : Thread nD τ).loc main_arg2)) := by
  show StableHlo.after hostOps0 (W0 m ρ c) (Proc.devRef .tc main_v0) = _
  after_results
  try rfl

/-! ### After region 0 -/

theorem at2_arg3 (c : Dev nD) : W2 m ρ c (Proc.devRef .tc main_arg3) = m ((c : Thread nD τ).loc main_arg3) :=
  (W2_of_ne m ρ c main_arg3 (by decide)).trans (at1_arg3 m ρ c)

theorem at2_arg4 (c : Dev nD) : W2 m ρ c (Proc.devRef .tc main_arg4) = m ((c : Thread nD τ).loc main_arg4) :=
  (W2_of_ne m ρ c main_arg4 (by decide)).trans (at1_arg4 m ρ c)

theorem at2_arg5 (c : Dev nD) : W2 m ρ c (Proc.devRef .tc main_arg5) = m ((c : Thread nD τ).loc main_arg5) :=
  (W2_of_ne m ρ c main_arg5 (by decide)).trans (at1_arg5 m ρ c)

theorem at2_arg6 (c : Dev nD) : W2 m ρ c (Proc.devRef .tc main_arg6) = m ((c : Thread nD τ).loc main_arg6) :=
  (W2_of_ne m ρ c main_arg6 (by decide)).trans (at1_arg6 m ρ c)

/-- Region 0 leaves the first layer in its output array. -/
theorem at2_v1 (c : Dev nD) : W2 m ρ c (Proc.devRef .tc main_v1) = layer3 (m ((c : Thread nD τ).loc main_arg0)) (m ((c : Thread nD τ).loc main_arg1)) (bFirst (m ((c : Thread nD τ).loc main_arg2))) := by
  refine (W2_arr m ρ c 3).trans ((array0 (V1 m ρ) c).trans ?_)
  show layer3 (W1 m ρ c (Proc.devRef .tc main_arg0)) (W1 m ρ c (Proc.devRef .tc main_arg1)) (W1 m ρ c (Proc.devRef .tc main_v0)) = _
  rw [at1_arg0, at1_arg1, at1_v0]

/-! ### After the second stretch (region 1's entry) -/

theorem at3_arg3 (c : Dev nD) : W3 m ρ c (Proc.devRef .tc main_arg3) = m ((c : Thread nD τ).loc main_arg3) := by
  show StableHlo.after hostOps1 (W2 m ρ c) (Proc.devRef .tc main_arg3) = _
  after_results
  rw [at2_arg3]
  try rfl

theorem at3_arg4 (c : Dev nD) : W3 m ρ c (Proc.devRef .tc main_arg4) = m ((c : Thread nD τ).loc main_arg4) := by
  show StableHlo.after hostOps1 (W2 m ρ c) (Proc.devRef .tc main_arg4) = _
  after_results
  rw [at2_arg4]
  try rfl

theorem at3_arg5 (c : Dev nD) : W3 m ρ c (Proc.devRef .tc main_arg5) = m ((c : Thread nD τ).loc main_arg5) := by
  show StableHlo.after hostOps1 (W2 m ρ c) (Proc.devRef .tc main_arg5) = _
  after_results
  rw [at2_arg5]
  try rfl

theorem at3_arg6 (c : Dev nD) : W3 m ρ c (Proc.devRef .tc main_arg6) = m ((c : Thread nD τ).loc main_arg6) := by
  show StableHlo.after hostOps1 (W2 m ρ c) (Proc.devRef .tc main_arg6) = _
  after_results
  rw [at2_arg6]
  try rfl

theorem at3_v1 (c : Dev nD) : W3 m ρ c (Proc.devRef .tc main_v1) = layer3 (m ((c : Thread nD τ).loc main_arg0)) (m ((c : Thread nD τ).loc main_arg1)) (bFirst (m ((c : Thread nD τ).loc main_arg2))) := by
  show StableHlo.after hostOps1 (W2 m ρ c) (Proc.devRef .tc main_v1) = _
  after_results
  rw [at2_v1]
  try rfl

theorem at3_v3 (c : Dev nD) : W3 m ρ c (Proc.devRef .tc main_v3) = wHidden0 (m ((c : Thread nD τ).loc main_arg3)) := by
  show StableHlo.after hostOps1 (W2 m ρ c) (Proc.devRef .tc main_v3) = _
  after_results
  rw [at2_arg3]
  try rfl

theorem at3_v6 (c : Dev nD) : W3 m ρ c (Proc.devRef .tc main_v6) = shapeCast S1x1024 (bVec0 (m ((c : Thread nD τ).loc main_arg4))) shapeCasts_S1024_S1x1024 := by
  show StableHlo.after hostOps1 (W2 m ρ c) (Proc.devRef .tc main_v6) = _
  after_results
  rw [at2_arg4]
  try rfl

/-! ### After region 1 -/

theorem at4_arg3 (c : Dev nD) : W4 m ρ c (Proc.devRef .tc main_arg3) = m ((c : Thread nD τ).loc main_arg3) :=
  (W4_of_ne m ρ c main_arg3 (by decide)).trans (at3_arg3 m ρ c)

theorem at4_arg4 (c : Dev nD) : W4 m ρ c (Proc.devRef .tc main_arg4) = m ((c : Thread nD τ).loc main_arg4) :=
  (W4_of_ne m ρ c main_arg4 (by decide)).trans (at3_arg4 m ρ c)

theorem at4_arg5 (c : Dev nD) : W4 m ρ c (Proc.devRef .tc main_arg5) = m ((c : Thread nD τ).loc main_arg5) :=
  (W4_of_ne m ρ c main_arg5 (by decide)).trans (at3_arg5 m ρ c)

theorem at4_arg6 (c : Dev nD) : W4 m ρ c (Proc.devRef .tc main_arg6) = m ((c : Thread nD τ).loc main_arg6) :=
  (W4_of_ne m ρ c main_arg6 (by decide)).trans (at3_arg6 m ρ c)

/-- Region 1 leaves the second layer in its output array. -/
theorem at4_v7 (c : Dev nD) : W4 m ρ c (Proc.devRef .tc main_v7) = layer1024 (layer3 (m ((c : Thread nD τ).loc main_arg0)) (m ((c : Thread nD τ).loc main_arg1)) (bFirst (m ((c : Thread nD τ).loc main_arg2)))) (wHidden0 (m ((c : Thread nD τ).loc main_arg3))) (shapeCast S1x1024 (bVec0 (m ((c : Thread nD τ).loc main_arg4))) shapeCasts_S1024_S1x1024) := by
  refine (W4_arr m ρ c 3).trans ((array1 (V3 m ρ) c).trans ?_)
  show layer1024 (W3 m ρ c (Proc.devRef .tc main_v1)) (W3 m ρ c (Proc.devRef .tc main_v3)) (W3 m ρ c (Proc.devRef .tc main_v6)) = _
  rw [at3_v1, at3_v3, at3_v6]

/-! ### After the third stretch (region 2's entry) -/

theorem at5_arg5 (c : Dev nD) : W5 m ρ c (Proc.devRef .tc main_arg5) = m ((c : Thread nD τ).loc main_arg5) := by
  show StableHlo.after hostOps2 (W4 m ρ c) (Proc.devRef .tc main_arg5) = _
  after_results
  rw [at4_arg5]
  try rfl

theorem at5_arg6 (c : Dev nD) : W5 m ρ c (Proc.devRef .tc main_arg6) = m ((c : Thread nD τ).loc main_arg6) := by
  show StableHlo.after hostOps2 (W4 m ρ c) (Proc.devRef .tc main_arg6) = _
  after_results
  rw [at4_arg6]
  try rfl

theorem at5_v7 (c : Dev nD) : W5 m ρ c (Proc.devRef .tc main_v7) = layer1024 (layer3 (m ((c : Thread nD τ).loc main_arg0)) (m ((c : Thread nD τ).loc main_arg1)) (bFirst (m ((c : Thread nD τ).loc main_arg2)))) (wHidden0 (m ((c : Thread nD τ).loc main_arg3))) (shapeCast S1x1024 (bVec0 (m ((c : Thread nD τ).loc main_arg4))) shapeCasts_S1024_S1x1024) := by
  show StableHlo.after hostOps2 (W4 m ρ c) (Proc.devRef .tc main_v7) = _
  after_results
  rw [at4_v7]
  try rfl

theorem at5_v9 (c : Dev nD) : W5 m ρ c (Proc.devRef .tc main_v9) = wHidden1 (m ((c : Thread nD τ).loc main_arg3)) := by
  show StableHlo.after hostOps2 (W4 m ρ c) (Proc.devRef .tc main_v9) = _
  after_results
  rw [at4_arg3]
  try rfl

theorem at5_v12 (c : Dev nD) : W5 m ρ c (Proc.devRef .tc main_v12) = shapeCast S1x1024 (bVec1 (m ((c : Thread nD τ).loc main_arg4))) shapeCasts_S1024_S1x1024 := by
  show StableHlo.after hostOps2 (W4 m ρ c) (Proc.devRef .tc main_v12) = _
  after_results
  rw [at4_arg4]
  try rfl

/-! ### After region 2 -/

theorem at6_arg5 (c : Dev nD) : W6 m ρ c (Proc.devRef .tc main_arg5) = m ((c : Thread nD τ).loc main_arg5) :=
  (W6_of_ne m ρ c main_arg5 (by decide)).trans (at5_arg5 m ρ c)

theorem at6_arg6 (c : Dev nD) : W6 m ρ c (Proc.devRef .tc main_arg6) = m ((c : Thread nD τ).loc main_arg6) :=
  (W6_of_ne m ρ c main_arg6 (by decide)).trans (at5_arg6 m ρ c)

/-- Region 2 leaves the third layer in its output array. -/
theorem at6_v13 (c : Dev nD) : W6 m ρ c (Proc.devRef .tc main_v13) = layer1024 (layer1024 (layer3 (m ((c : Thread nD τ).loc main_arg0)) (m ((c : Thread nD τ).loc main_arg1)) (bFirst (m ((c : Thread nD τ).loc main_arg2)))) (wHidden0 (m ((c : Thread nD τ).loc main_arg3))) (shapeCast S1x1024 (bVec0 (m ((c : Thread nD τ).loc main_arg4))) shapeCasts_S1024_S1x1024)) (wHidden1 (m ((c : Thread nD τ).loc main_arg3))) (shapeCast S1x1024 (bVec1 (m ((c : Thread nD τ).loc main_arg4))) shapeCasts_S1024_S1x1024) := by
  refine (W6_arr m ρ c 3).trans ((array2 (V5 m ρ) c).trans ?_)
  show layer1024 (W5 m ρ c (Proc.devRef .tc main_v7)) (W5 m ρ c (Proc.devRef .tc main_v9)) (W5 m ρ c (Proc.devRef .tc main_v12)) = _
  rw [at5_v7, at5_v9, at5_v12]

/-! ### The result: the last stretch applies the last layer -/

/-- The result array after the last stretch of host operations is the whole network of the launch arrays. -/
theorem result_value (c : Dev nD) : W7 m ρ c (Proc.devRef .tc main_v22)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v22) = _
  after_results
  rw [at6_arg5, at6_arg6, at6_v13]
  rfl

end Cert.KernelIdeal.Trop

end
-- ==== Proof.RefLayer.lean ====
import proofs.«166816_j60120952209906_2_alg».proof.Proof.Gen.ReferenceIdeal
import proofs.«166816_j60120952209906_2_alg».proof.Proof.Layer
import proofs.«166816_j60120952209906_2_alg».proof.Proof.ChunkStep
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx

namespace Cert.ReferenceIdeal.RefValue

open Cert.ReferenceIdeal Cert.ReferenceIdeal.Gen

/-- The bias vector made a row and repeated down the 256 rows, read at `(r, q)`. -/
theorem biasRep_apply (b : Vec Ideal S1024 .f32) (r : Fin 256) (q : Fin 1024) :
    broadcastInDim S256x1024 ![0, 1] bcast_S1x1024_S256x1024_0_1 (broadcastInDim S1x1024 ![1] bcast_S1024_S1x1024_1 b) (ix2 r q)
      = b (ix1 q) := by
  rw [broadcastInDim_apply _ bcast_S1x1024_S256x1024_0_1 _ (ix2 r q) (ix2 (0 : Fin 1) q) (fun a => by
    match a with
    | ⟨0, _⟩ => rfl
    | ⟨1, _⟩ => show q.val = if (1024 : Nat) = 1 then 0 else q.val; rw [if_neg (by decide)])]
  exact broadcastInDim_apply _ bcast_S1024_S1x1024_1 b (ix2 (0 : Fin 1) q) (ix1 q) (fun a => by
    match a with
    | ⟨0, _⟩ => show q.val = if (1024 : Nat) = 1 then 0 else q.val; rw [if_neg (by decide)])

/-! ### Contraction length 3 -/

/-- One layer as the reference computes it on the host: both operands repeated to `[256, 1024, 3]`, multiplied, the
    maximum over the last axis from `-∞`, plus the bias repeated down the rows. -/
def refLayer3 (H : Vec Ideal S256x3 .f32) (W : Vec Ideal S1024x3 .f32) (b : Vec Ideal S1024 .f32) : Vec Ideal S256x1024 .f32 :=
  addf (F := Ideal) (φ := .f32)
    (Host.reduce (FloatOps.maximumf (F := Ideal) (φ := .f32))
      (mulf (F := Ideal) (φ := .f32)
        (broadcastInDim S256x1024x3 ![0, 1, 2] bcast_S1x1024x3_S256x1024x3_0_1_2
          (broadcastInDim S1x1024x3 ![1, 2] bcast_S1024x3_S1x1024x3_1_2 W))
        (broadcastInDim S256x1024x3 ![0, 1, 2] bcast_S256x1x3_S256x1024x3_0_1_2
          (broadcastInDim S256x1x3 ![0, 2] bcast_S256x3_S256x1x3_0_2 H)))
      (constant (F := Ideal) S_ .f32 0xFF800000#32) reducesTo_S256x1024x3_S256x1024_d2 h_S_)
    (broadcastInDim S256x1024 ![0, 1] bcast_S1x1024_S256x1024_0_1 (broadcastInDim S1x1024 ![1] bcast_S1024_S1x1024_1 b))

theorem reduces3 : S256x1024x3.Reduces [2] S256x1024 := by decide

set_option backward.isDefEq.respectTransparency.types false in
/-- The source index above `(r, q)` with coordinate `k` on the reduced axis is `(r, q, k)`. -/
theorem liftR3 (r : Fin 256) (q : Fin 1024) (k : Fin 3) : reduces3.lift (ix2 r q) k = ix3 r q k := by
  funext c
  apply Fin.ext
  show reduces3.liftVal (ix2 r q) k.val c = (ix3 r q k c).val
  match c with
  | ⟨0, _⟩ => simp [Shape.Reduces.liftVal]
  | ⟨1, _⟩ => simp [Shape.Reduces.liftVal]
  | ⟨2, _⟩ => simp [Shape.Reduces.liftVal]

set_option backward.isDefEq.respectTransparency.types false in
/-- The host's maximum over the last axis from `-∞`, read at `(r, q)`: the largest of the 3 entries `(r, q, k)`. -/
theorem hostMax3 (src : FVec Ideal S256x1024x3 .f32) (r : Fin 256) (q : Fin 1024) :
    Host.reduce (FloatOps.maximumf (F := Ideal) (φ := .f32)) src (constant (F := Ideal) S_ .f32 0xFF800000#32)
        reducesTo_S256x1024x3_S256x1024_d2 h_S_ (ix2 r q)
      = (Finset.univ : Finset (Fin 3)).fold max (⊥ : EReal) (fun k => src (ix3 r q k)) := by
  refine (Host.reduce_eq_fold_single (FloatOps.maximumf (F := Ideal) (φ := .f32)) src _
    reducesTo_S256x1024x3_S256x1024_d2 reduces3 h_S_ (ix2 r q)).trans ?_
  refine congrArg₂ (fun b f => (Finset.univ : Finset (Fin 3)).fold max b f) Cert.KernelIdeal.Trop.negInf (funext fun k => ?_)
  exact congrArg src (liftR3 r q k)

/-- The weights repeated down the 256 rows, read at `(r, q, k)`. -/
theorem wRep3_apply (W : Vec Ideal S1024x3 .f32) (r : Fin 256) (q : Fin 1024) (k : Fin 3) :
    broadcastInDim S256x1024x3 ![0, 1, 2] bcast_S1x1024x3_S256x1024x3_0_1_2
      (broadcastInDim S1x1024x3 ![1, 2] bcast_S1024x3_S1x1024x3_1_2 W) (ix3 r q k) = W (ix2 q k) := by
  rw [broadcastInDim_apply _ bcast_S1x1024x3_S256x1024x3_0_1_2 _ (ix3 r q k) (ix3 (0 : Fin 1) q k) (fun a => by
    match a with
    | ⟨0, _⟩ => rfl
    | ⟨1, _⟩ => show q.val = if (1024 : Nat) = 1 then 0 else q.val; rw [if_neg (by decide)]
    | ⟨2, _⟩ => show k.val = if (3 : Nat) = 1 then 0 else k.val; rw [if_neg (by decide)])]
  exact broadcastInDim_apply _ bcast_S1024x3_S1x1024x3_1_2 W (ix3 (0 : Fin 1) q k) (ix2 q k) (fun a => by
    match a with
    | ⟨0, _⟩ => show q.val = if (1024 : Nat) = 1 then 0 else q.val; rw [if_neg (by decide)]
    | ⟨1, _⟩ => show k.val = if (3 : Nat) = 1 then 0 else k.val; rw [if_neg (by decide)])

/-- The activations repeated across the 1024 output columns, read at `(r, q, k)`. -/
theorem hRep3_apply (H : Vec Ideal S256x3 .f32) (r : Fin 256) (q : Fin 1024) (k : Fin 3) :
    broadcastInDim S256x1024x3 ![0, 1, 2] bcast_S256x1x3_S256x1024x3_0_1_2
      (broadcastInDim S256x1x3 ![0, 2] bcast_S256x3_S256x1x3_0_2 H) (ix3 r q k) = H (ix2 r k) := by
  rw [broadcastInDim_apply _ bcast_S256x1x3_S256x1024x3_0_1_2 _ (ix3 r q k) (ix3 r (0 : Fin 1) k) (fun a => by
    match a with
    | ⟨0, _⟩ => show r.val = if (256 : Nat) = 1 then 0 else r.val; rw [if_neg (by decide)]
    | ⟨1, _⟩ => rfl
    | ⟨2, _⟩ => show k.val = if (3 : Nat) = 1 then 0 else k.val; rw [if_neg (by decide)])]
  exact broadcastInDim_apply _ bcast_S256x3_S256x1x3_0_2 H (ix3 r (0 : Fin 1) k) (ix2 r k) (fun a => by
    match a with
    | ⟨0, _⟩ => show r.val = if (256 : Nat) = 1 then 0 else r.val; rw [if_neg (by decide)]
    | ⟨1, _⟩ => show k.val = if (3 : Nat) = 1 then 0 else k.val; rw [if_neg (by decide)])

/-- The host's layer is the layer function of the same arrays, the bias taken as a row. -/
theorem refLayer3_eq (H : Vec Ideal S256x3 .f32) (W : Vec Ideal S1024x3 .f32) (b : Vec Ideal S1024 .f32) :
    refLayer3 H W b
      = Cert.KernelIdeal.Trop.layer3 H W (shapeCast S1x1024 b Cert.KernelIdeal.Gen.shapeCasts_S1024_S1x1024) := by
  funext i
  obtain ⟨r, q, rfl⟩ : ∃ (r : Fin 256) (q : Fin 1024), i = ix2 r q := ⟨i 0, i 1, eq_ix2 i⟩
  show _ = Cert.KernelIdeal.Trop.layerAt3 H W (shapeCast S1x1024 b Cert.KernelIdeal.Gen.shapeCasts_S1024_S1x1024) r q
  unfold refLayer3 Cert.KernelIdeal.Trop.layerAt3
  rw [addf_apply]
  refine congrArg₂ (· + ·) ?_ ?_
  · refine (hostMax3 _ r q).trans ?_
    refine congrArg (fun f => (Finset.univ : Finset (Fin 3)).fold max (⊥ : EReal) f) (funext fun k => ?_)
    rw [mulf_apply, wRep3_apply, hRep3_apply]
  · rw [biasRep_apply]
    exact (shapeCast_a_1a_apply b Cert.KernelIdeal.Gen.shapeCasts_S1024_S1x1024 0 q).symm

/-! ### Contraction length 1024 -/

/-- One layer as the reference computes it on the host: both operands repeated to `[256, 1024, 1024]`, multiplied, the
    maximum over the last axis from `-∞`, plus the bias repeated down the rows. -/
def refLayer1024 (H : Vec Ideal S256x1024 .f32) (W : Vec Ideal S1024x1024 .f32) (b : Vec Ideal S1024 .f32) : Vec Ideal S256x1024 .f32 :=
  addf (F := Ideal) (φ := .f32)
    (Host.reduce (FloatOps.maximumf (F := Ideal) (φ := .f32))
      (mulf (F := Ideal) (φ := .f32)
        (broadcastInDim S256x1024x1024 ![0, 1, 2] bcast_S1x1024x1024_S256x1024x1024_0_1_2
          (broadcastInDim S1x1024x1024 ![1, 2] bcast_S1024x1024_S1x1024x1024_1_2 W))
        (broadcastInDim S256x1024x1024 ![0, 1, 2] bcast_S256x1x1024_S256x1024x1024_0_1_2
          (broadcastInDim S256x1x1024 ![0, 2] bcast_S256x1024_S256x1x1024_0_2 H)))
      (constant (F := Ideal) S_ .f32 0xFF800000#32) reducesTo_S256x1024x1024_S256x1024_d2 h_S_)
    (broadcastInDim S256x1024 ![0, 1] bcast_S1x1024_S256x1024_0_1 (broadcastInDim S1x1024 ![1] bcast_S1024_S1x1024_1 b))

theorem reduces1024 : S256x1024x1024.Reduces [2] S256x1024 := by decide

set_option backward.isDefEq.respectTransparency.types false in
/-- The source index above `(r, q)` with coordinate `k` on the reduced axis is `(r, q, k)`. -/
theorem liftR1024 (r : Fin 256) (q : Fin 1024) (k : Fin 1024) : reduces1024.lift (ix2 r q) k = ix3 r q k := by
  funext c
  apply Fin.ext
  show reduces1024.liftVal (ix2 r q) k.val c = (ix3 r q k c).val
  match c with
  | ⟨0, _⟩ => simp [Shape.Reduces.liftVal]
  | ⟨1, _⟩ => simp [Shape.Reduces.liftVal]
  | ⟨2, _⟩ => simp [Shape.Reduces.liftVal]

set_option backward.isDefEq.respectTransparency.types false in
/-- The host's maximum over the last axis from `-∞`, read at `(r, q)`: the largest of the 1024 entries `(r, q, k)`. -/
theorem hostMax1024 (src : FVec Ideal S256x1024x1024 .f32) (r : Fin 256) (q : Fin 1024) :
    Host.reduce (FloatOps.maximumf (F := Ideal) (φ := .f32)) src (constant (F := Ideal) S_ .f32 0xFF800000#32)
        reducesTo_S256x1024x1024_S256x1024_d2 h_S_ (ix2 r q)
      = (Finset.univ : Finset (Fin 1024)).fold max (⊥ : EReal) (fun k => src (ix3 r q k)) := by
  refine (Host.reduce_eq_fold_single (FloatOps.maximumf (F := Ideal) (φ := .f32)) src _
    reducesTo_S256x1024x1024_S256x1024_d2 reduces1024 h_S_ (ix2 r q)).trans ?_
  refine congrArg₂ (fun b f => (Finset.univ : Finset (Fin 1024)).fold max b f) Cert.KernelIdeal.Trop.negInf (funext fun k => ?_)
  exact congrArg src (liftR1024 r q k)

/-- The weights repeated down the 256 rows, read at `(r, q, k)`. -/
theorem wRep1024_apply (W : Vec Ideal S1024x1024 .f32) (r : Fin 256) (q : Fin 1024) (k : Fin 1024) :
    broadcastInDim S256x1024x1024 ![0, 1, 2] bcast_S1x1024x1024_S256x1024x1024_0_1_2
      (broadcastInDim S1x1024x1024 ![1, 2] bcast_S1024x1024_S1x1024x1024_1_2 W) (ix3 r q k) = W (ix2 q k) := by
  rw [broadcastInDim_apply _ bcast_S1x1024x1024_S256x1024x1024_0_1_2 _ (ix3 r q k) (ix3 (0 : Fin 1) q k) (fun a => by
    match a with
    | ⟨0, _⟩ => rfl
    | ⟨1, _⟩ => show q.val = if (1024 : Nat) = 1 then 0 else q.val; rw [if_neg (by decide)]
    | ⟨2, _⟩ => show k.val = if (1024 : Nat) = 1 then 0 else k.val; rw [if_neg (by decide)])]
  exact broadcastInDim_apply _ bcast_S1024x1024_S1x1024x1024_1_2 W (ix3 (0 : Fin 1) q k) (ix2 q k) (fun a => by
    match a with
    | ⟨0, _⟩ => show q.val = if (1024 : Nat) = 1 then 0 else q.val; rw [if_neg (by decide)]
    | ⟨1, _⟩ => show k.val = if (1024 : Nat) = 1 then 0 else k.val; rw [if_neg (by decide)])

/-- The activations repeated across the 1024 output columns, read at `(r, q, k)`. -/
theorem hRep1024_apply (H : Vec Ideal S256x1024 .f32) (r : Fin 256) (q : Fin 1024) (k : Fin 1024) :
    broadcastInDim S256x1024x1024 ![0, 1, 2] bcast_S256x1x1024_S256x1024x1024_0_1_2
      (broadcastInDim S256x1x1024 ![0, 2] bcast_S256x1024_S256x1x1024_0_2 H) (ix3 r q k) = H (ix2 r k) := by
  rw [broadcastInDim_apply _ bcast_S256x1x1024_S256x1024x1024_0_1_2 _ (ix3 r q k) (ix3 r (0 : Fin 1) k) (fun a => by
    match a with
    | ⟨0, _⟩ => show r.val = if (256 : Nat) = 1 then 0 else r.val; rw [if_neg (by decide)]
    | ⟨1, _⟩ => rfl
    | ⟨2, _⟩ => show k.val = if (1024 : Nat) = 1 then 0 else k.val; rw [if_neg (by decide)])]
  exact broadcastInDim_apply _ bcast_S256x1024_S256x1x1024_0_2 H (ix3 r (0 : Fin 1) k) (ix2 r k) (fun a => by
    match a with
    | ⟨0, _⟩ => show r.val = if (256 : Nat) = 1 then 0 else r.val; rw [if_neg (by decide)]
    | ⟨1, _⟩ => show k.val = if (1024 : Nat) = 1 then 0 else k.val; rw [if_neg (by decide)])

/-- The host's layer is the layer function of the same arrays, the bias taken as a row. -/
theorem refLayer1024_eq (H : Vec Ideal S256x1024 .f32) (W : Vec Ideal S1024x1024 .f32) (b : Vec Ideal S1024 .f32) :
    refLayer1024 H W b
      = Cert.KernelIdeal.Trop.layer1024 H W (shapeCast S1x1024 b Cert.KernelIdeal.Gen.shapeCasts_S1024_S1x1024) := by
  funext i
  obtain ⟨r, q, rfl⟩ : ∃ (r : Fin 256) (q : Fin 1024), i = ix2 r q := ⟨i 0, i 1, eq_ix2 i⟩
  show _ = Cert.KernelIdeal.Trop.layerAt1024 H W (shapeCast S1x1024 b Cert.KernelIdeal.Gen.shapeCasts_S1024_S1x1024) r q
  unfold refLayer1024 Cert.KernelIdeal.Trop.layerAt1024
  rw [addf_apply]
  refine congrArg₂ (· + ·) ?_ ?_
  · refine (hostMax1024 _ r q).trans ?_
    refine congrArg (fun f => (Finset.univ : Finset (Fin 1024)).fold max (⊥ : EReal) f) (funext fun k => ?_)
    rw [mulf_apply, wRep1024_apply, hRep1024_apply]
  · rw [biasRep_apply]
    exact (shapeCast_a_1a_apply b Cert.KernelIdeal.Gen.shapeCasts_S1024_S1x1024 0 q).symm

end Cert.ReferenceIdeal.RefValue

end
-- ==== Proof.RefValue.lean ====
import proofs.«166816_j60120952209906_2_alg».proof.Proof.RefLayer
import proofs.«166816_j60120952209906_2_alg».proof.Proof.Network
import proofs.«166816_j60120952209906_2_alg».proof.Proof.Gen.ReferenceIdeal.Read

noncomputable section

open Idealize.ShloMosaic Idealize.ShloMosaic.TcCoe Idealize.ShloMosaic.ValueIdx

namespace Cert.ReferenceIdeal.RefValue

open Cert.ReferenceIdeal Cert.ReferenceIdeal.Gen
open Cert.KernelIdeal.Trop (network lastLayer wHidden0 wHidden1 bVec0 bVec1)

/-- The reference's result, stage by stage, is the network: its first three layers are host layers of the arguments
    (the hidden weights and biases the same slices the kernel's host code takes), each the layer function with its
    bias as a row, and its last layer is the last host layer. -/
theorem val_eq_network (x0 : Vec Ideal S256x3 .f32) (x1 : Vec Ideal S1024x3 .f32) (x2 : Vec Ideal S1024 .f32)
    (x3 : Vec Ideal S2x1024x1024 .f32) (x4 : Vec Ideal S2x1024 .f32) (x5 : Vec Ideal S1x1024 .f32) (x6 : Vec Ideal S1 .f32) :
    Cert.ReferenceIdeal.Read.val_main_v43 (F := Ideal) x0 x1 x2 x3 x4 x5 x6 = network x0 x1 x2 x3 x4 x5 x6 := by
  show lastLayer x5 (refLayer1024 (refLayer1024 (refLayer3 x0 x1 x2) (wHidden0 x3) (bVec0 x4)) (wHidden1 x3) (bVec1 x4)) x6 = _
  rw [refLayer3_eq, refLayer1024_eq, refLayer1024_eq]
  rfl

end Cert.ReferenceIdeal.RefValue

end
-- ==== Proof.lean ====
/-
  Three tropical (max-plus) dense layers, `out[r, q] = max_k (w[q, k] * h[r, k]) + b[q]`, run as three pipelined
  kernels (contraction lengths 3, 1024, 1024; eight column blocks of 128 each), then one more such layer with a single
  output column computed by host operations; the reference computes all four layers by host operations.

  Each kernel keeps a running maximum in a scratch block: it starts at `-∞` and takes, slice by slice of the
  contraction axis (16 coordinates at a time; the first layer's 3 at once), the maximum with the largest product of the
  slice. On the extended reals `max` is associative, commutative and has `-∞` as its identity, so the running maximum
  after the last slice is the maximum over the whole axis — the reference's single reduction. This is said through upper
  bounds (`x ≤ c` exactly when every product is `≤ c`), which needs no arithmetic at the infinities and never uses
  the precondition. The bias is added after the maximum on both sides, and the last layer is the same host term on both
  sides, so the two results are one function of the seven argument arrays (`network`).

  The modules: the slice step read at an index; the running-maximum invariant and its step; each kernel's block at a grid
  point; the eight blocks tiling each output array; the buffer contents at each boundary of the program, from the launch
  arrays to the result; the reference's layers as the same layer function; and the claims below.
-/
import proofs.«166816_j60120952209906_2_alg».proof.Defs
import proofs.«166816_j60120952209906_2_alg».proof.Proof.Gen.Kernel
import proofs.«166816_j60120952209906_2_alg».proof.Proof.Gen.Kernel.Frame
import proofs.«166816_j60120952209906_2_alg».proof.Proof.Gen.KernelIdeal
import proofs.«166816_j60120952209906_2_alg».proof.Proof.Gen.KernelIdeal.Frame
import proofs.«166816_j60120952209906_2_alg».proof.Proof.Gen.ReferenceIdeal
import proofs.«166816_j60120952209906_2_alg».proof.Proof.Gen.Pre_finite_inputs
import proofs.«166816_j60120952209906_2_alg».proof.Proof.Gen.ReferenceIdeal.Run
import proofs.«166816_j60120952209906_2_alg».proof.Proof.Gen.ReferenceIdeal.Read
import proofs.«166816_j60120952209906_2_alg».proof.Proof.RunResult
import proofs.«166816_j60120952209906_2_alg».proof.Proof.KernelValue
import proofs.«166816_j60120952209906_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the argument arrays in their result: the kernel's by the three
    regions' layers and the last host layer, the reference's by its four host layers. -/
theorem algebraic : Cert.algebraic_KernelIdeal_ReferenceIdeal := by
  intro m ρ m' ρ' _ hagree
  refine ⟨fun c => Cert.KernelIdeal.Trop.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Trop.result_value m ρ c), (h c).2⟩)
      (Cert.KernelIdeal.Trop.run_result (F := Ideal) m ρ)
  · refine (θ_run Cert.ReferenceIdeal.defs _ _).mono (fun r h c => ⟨?_, (h c).2⟩)
      (Cert.ReferenceIdeal.Value.run (F := Ideal) m' ρ')
    refine (h c).1.trans ?_
    refine (Cert.ReferenceIdeal.Read.val_main_v43_eq (F := Ideal) _ _ _ _ _ _ _).trans ?_
    refine (Cert.ReferenceIdeal.RefValue.val_eq_network _ _ _ _ _ _ _).trans ?_
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
